-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x165 : Shape := ⟨2, ![200000, 165]⟩
abbrev S2x500000 : Shape := ⟨2, ![2, 500000]⟩
abbrev S165x256 : Shape := ⟨2, ![165, 256]⟩
abbrev S256 : Shape := ⟨1, ![256]⟩
abbrev S256x2 : Shape := ⟨2, ![256, 2]⟩
abbrev S2 : Shape := ⟨1, ![2]⟩
abbrev S_ : Shape := ⟨0, ![]⟩

class Facts : Prop where
  bcast_S_S200000x165 : S_.BroadcastsInDim S200000x165 (![] : Fin 0 → Fin S200000x165.rank)
  reducesTo_S200000x165_S_d0_1 : S200000x165.ReducesTo [0, 1] S_
  h_S_ : 0 < S_.numel
  bcast_S_S165x256 : S_.BroadcastsInDim S165x256 (![] : Fin 0 → Fin S165x256.rank)
  reducesTo_S165x256_S_d0_1 : S165x256.ReducesTo [0, 1] S_
  bcast_S_S256 : S_.BroadcastsInDim S256 (![] : Fin 0 → Fin S256.rank)
  reducesTo_S256_S_d0 : S256.ReducesTo [0] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S256x2 .f32) (main_arg6 : FVec F S256x2 .f32) (main_arg7 : FVec F S2 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x2 .f32 := Host.absf main_arg5
  let main_cst_6 : FVec F S_ .f32 := constant S_ .f32 0x7F800000#32
  let main_v20 : FVec F S256x2 .f32 := broadcastInDim S256x2 ![] bcast_S_S256x2 main_cst_6
  let main_v21 : IVec S256x2 1 := cmpf .olt main_v19 main_v20
  let main_c_7 : IVec S_ 1 := constantI S_ 1 1#1
  let main_v22 : IVec S_ 1 := (fun x v => Host.reduce IntOp.andi x v reducesTo_S256x2_S_d0_1 h_S_) main_v21 main_c_7
  let main_v23 : IVec S_ 1 := andi main_v18 main_v22
  let main_v24 : FVec F S256x2 .f32 := Host.absf main_arg6
  let main_cst_8 : FVec F S_ .f32 := constant S_ .f32 0x7F800000#32
  let main_v25 : FVec F S256x2 .f32 := broadcastInDim S256x2 ![] bcast_S_S256x2 main_cst_8
  let main_v26 : IVec S256x2 1 := cmpf .olt main_v24 main_v25
  let main_c_9 : IVec S_ 1 := constantI S_ 1 1#1
  let main_v27 : IVec S_ 1 := (fun x v => Host.reduce IntOp.andi x v reducesTo_S256x2_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S200000x165 .f32) (main_arg1 : IVec S2x500000 32) (main_arg2 : FVec F S165x256 .f32) (main_arg3 : FVec F S165x256 .f32) (main_arg4 : FVec F S256 .f32) (main_arg5 : FVec F S256x2 .f32) (main_arg6 : FVec F S256x2 .f32) (main_arg7 : FVec F S2 .f32) : IVec S_ 1 :=
  let main_v0 : FVec F S200000x165 .f32 := Host.absf main_arg0
  let main_cst : FVec F S_ .f32 := constant S_ .f32 0x7F800000#32
  let main_v1 : FVec F S200000x165 .f32 := broadcastInDim S200000x165 ![] bcast_S_S200000x165 main_cst
  let main_v2 : IVec S200000x165 1 := cmpf .olt main_v0 main_v1
  let main_c : IVec S_ 1 := constantI S_ 1 1#1
  let main_v3 : IVec S_ 1 := (fun x v => Host.reduce IntOp.andi x v reducesTo_S200000x165_S_d0_1 h_S_) main_v2 main_c
  let main_v4 : FVec F S165x256 .f32 := Host.absf main_arg2
  let main_cst_0 : FVec F S_ .f32 := constant S_ .f32 0x7F800000#32
  let main_v5 : FVec F S165x256 .f32 := broadcastInDim S165x256 ![] bcast_S_S165x256 main_cst_0
  let main_v6 : IVec S165x256 1 := cmpf .olt main_v4 main_v5
  let main_c_1 : IVec S_ 1 := constantI S_ 1 1#1
  let main_v7 : IVec S_ 1 := (fun x v => Host.reduce IntOp.andi x v reducesTo_S165x256_S_d0_1 h_S_) main_v6 main_c_1
  let main_v8 : IVec S_ 1 := andi main_v3 main_v7
  let main_v9 : FVec F S165x256 .f32 := Host.absf main_arg3
  let main_cst_2 : FVec F S_ .f32 := constant S_ .f32 0x7F800000#32
  let main_v10 : FVec F S165x256 .f32 := broadcastInDim S165x256 ![] bcast_S_S165x256 main_cst_2
  let main_v11 : IVec S165x256 1 := cmpf .olt main_v9 main_v10
  let main_c_3 : IVec S_ 1 := constantI S_ 1 1#1
  let main_v12 : IVec S_ 1 := (fun x v => Host.reduce IntOp.andi x v reducesTo_S165x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_v13 main_v16
-- ==== Kernel.lean ====
abbrev S200000x165 : Shape := ⟨2, ![200000, 165]⟩
abbrev S2x500000 : Shape := ⟨2, ![2, 500000]⟩
abbrev S165x256 : Shape := ⟨2, ![165, 256]⟩
abbrev S256 : Shape := ⟨1, ![256]⟩
abbrev S256x2 : Shape := ⟨2, ![256, 2]⟩
abbrev S2 : Shape := ⟨1, ![2]⟩
abbrev S1x500000 : Shape := ⟨2, ![1, 500000]⟩
abbrev S500000 : Shape := ⟨1, ![500000]⟩
abbrev S_ : Shape := ⟨0, ![]⟩
abbrev S200000 : Shape := ⟨1, ![200000]⟩
abbrev S500000x1 : Shape := ⟨2, ![500000, 1]⟩
abbrev S200000x1 : Shape := ⟨2, ![200000, 1]⟩
abbrev S500000x165 : Shape := ⟨2, ![500000, 165]⟩
abbrev S1x256 : Shape := ⟨2, ![1, 256]⟩
abbrev S200000x2 : Shape := ⟨2, ![200000, 2]⟩
abbrev S8000x165 : Shape := ⟨2, ![8000, 165]⟩
abbrev S8000x2 : Shape := ⟨2, ![8000, 2]⟩
abbrev S8000x256 : Shape := ⟨2, ![8000, 256]⟩
abbrev S500000x2 : Shape := ⟨2, ![500000, 2]⟩
abbrev S1x2 : Shape := ⟨2, ![1, 2]⟩

abbrev nBuf : Space → Nat
  | .hbm => 59
  | .vmem => 13
  | .smem => 0
  | _ => 0

abbrev bufTy : (tb : Table) → Fin (tcTables nBuf tb) → BufTy
  | .hbm, ⟨0, _⟩ => ⟨S200000x165, .f32⟩
  | .hbm, ⟨1, _⟩ => ⟨S2x500000, .i32⟩
  | .hbm, ⟨2, _⟩ => ⟨S165x256, .f32⟩
  | .hbm, ⟨3, _⟩ => ⟨S165x256, .f32⟩
  | .hbm, ⟨4, _⟩ => ⟨S256, .f32⟩
  | .hbm, ⟨5, _⟩ => ⟨S256x2, .f32⟩
  | .hbm, ⟨6, _⟩ => ⟨S256x2, .f32⟩
  | .hbm, ⟨7, _⟩ => ⟨S2, .f32⟩
  | .hbm, ⟨8, _⟩ => ⟨S1x500000, .i32⟩
  | .hbm, ⟨9, _⟩ => ⟨S500000, .i32⟩
  | .hbm, ⟨10, _⟩ => ⟨S1x500000, .i32⟩
  | .hbm, ⟨11, _⟩ => ⟨S500000, .i32⟩
  | .hbm, ⟨12, _⟩ => ⟨S_, .f32⟩
  | .hbm, ⟨13, _⟩ => ⟨S500000, .f32⟩
  | .hbm, ⟨14, _⟩ => ⟨S_, .f32⟩
  | .hbm, ⟨15, _⟩ => ⟨S200000, .f32⟩
  | .hbm, ⟨16, _⟩ => ⟨S500000x1, .i32⟩
  | .hbm, ⟨17, _⟩ => ⟨S200000, .f32⟩
  | .hbm, ⟨18, _⟩ => ⟨S_, .f32⟩
  | .hbm, ⟨19, _⟩ => ⟨S200000, .f32⟩
  | .hbm, ⟨20, _⟩ => ⟨S200000, .f32⟩
  | .hbm, ⟨21, _⟩ => ⟨S200000x1, .f32⟩
  | .hbm, ⟨22, _⟩ => ⟨S_, .i32⟩
  | .hbm, ⟨23, _⟩ => ⟨S500000, .i32⟩
  | .hbm, ⟨24, _⟩ => ⟨S500000, .i1⟩
  | .hbm, ⟨25, _⟩ => ⟨S_, .i32⟩
  | .hbm, ⟨26, _⟩ => ⟨S500000, .i32⟩
  | .hbm, ⟨27, _⟩ => ⟨S500000, .i32⟩
  | .hbm, ⟨28, _⟩ => ⟨S500000, .i32⟩
  | .hbm, ⟨29, _⟩ => ⟨S500000x1, .i32⟩
  | .hbm, ⟨30, _⟩ => ⟨S500000x165, .f32⟩
  | .hbm, ⟨31, _⟩ => ⟨S_, .f32⟩
  | .hbm, ⟨32, _⟩ => ⟨S200000x165, .f32⟩
  | .hbm, ⟨33, _⟩ => ⟨S500000x1, .i32⟩
  | .hbm, ⟨34, _⟩ => ⟨S200000x165, .f32⟩
  | .hbm, ⟨35, _⟩ => ⟨S200000x165, .f32⟩
  | .hbm, ⟨36, _⟩ => ⟨S200000x165, .f32⟩
  | .hbm, ⟨37, _⟩ => ⟨S1x256, .f32⟩
  | .hbm, ⟨38, _⟩ => ⟨S200000x2, .f32⟩
  | .hbm, ⟨39, _⟩ => ⟨S200000x2, .f32⟩
  | .hbm, ⟨40, _⟩ => ⟨S_, .i32⟩
  | .hbm, ⟨41, _⟩ => ⟨S500000, .i32⟩
  | .hbm, ⟨42, _⟩ => ⟨S500000, .i1⟩
  | .hbm, ⟨43, _⟩ => ⟨S_, .i32⟩
  | .hbm, ⟨44, _⟩ => ⟨S500000, .i32⟩
  | .hbm, ⟨45, _⟩ => ⟨S500000, .i32⟩
  | .hbm, ⟨46, _⟩ => ⟨S500000, .i32⟩
  | .hbm, ⟨47, _⟩ => ⟨S500000x1, .i32⟩
  | .hbm, ⟨48, _⟩ => ⟨S500000x2, .f32⟩
  | .hbm, ⟨49, _⟩ => ⟨S_, .f32⟩
  | .hbm, ⟨50, _⟩ => ⟨S200000x2, .f32⟩
  | .hbm, ⟨51, _⟩ => ⟨S500000x1, .i32⟩
  | .hbm, ⟨52, _⟩ => ⟨S200000x2, .f32⟩
  | .hbm, ⟨53, _⟩ => ⟨S200000x2, .f32⟩
  | .hbm, ⟨54, _⟩ => ⟨S200000x2, .f32⟩
  | .hbm, ⟨55, _⟩ => ⟨S200000x2, .f32⟩
  | .hbm, ⟨56, _⟩ => ⟨S1x2, .f32⟩
  | .hbm, ⟨57, _⟩ => ⟨S200000x2, .f32⟩
  | .hbm, ⟨58, _⟩ => ⟨S200000x2, .f32⟩
  | .local _ .vmem, ⟨0, _⟩ => ⟨S8000x165, .f32⟩
  | .local _ .vmem, ⟨1, _⟩ => ⟨S8000x165, .f32⟩
  | .local _ .vmem, ⟨2, _⟩ => ⟨S8000x165, .f32⟩
  | .local _ .vmem, ⟨3, _⟩ => ⟨S8000x165, .f32⟩
  | .local _ .vmem, ⟨4, _⟩ => ⟨S165x256, .f32⟩
  | .local _ .vmem, ⟨5, _⟩ => ⟨S165x256, .f32⟩
  | .local _ .vmem, ⟨6, _⟩ => ⟨S1x256, .f32⟩
  | .local _ .vmem, ⟨7, _⟩ => ⟨S256x2, .f32⟩
  | .local _ .vmem, ⟨8, _⟩ => ⟨S256x2, .f32⟩
  | .local _ .vmem, ⟨9, _⟩ => ⟨S8000x2, .f32⟩
  | .local _ .vmem, ⟨10, _⟩ => ⟨S8000x2, .f32⟩
  | .local _ .vmem, ⟨11, _⟩ => ⟨S8000x2, .f32⟩
  | .local _ .vmem, ⟨12, _⟩ => ⟨S8000x2, .f32⟩
  | _, _ => ⟨S200000x165, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24_0 : Ref sig .tc := ⟨.hbm, 38, rfl⟩
abbrev main_v24_1 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x165 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x165 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S165x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S165x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8000x2 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8000x2 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S_S200000 : S_.BroadcastsInDim S200000 (![] : Fin 0 → Fin S200000.rank)
  bcast_S500000_S500000x1_0 : S500000.BroadcastsInDim S500000x1 (![0] : Fin 1 → Fin S500000x1.rank)
  bcast_S200000_S200000x1_0 : S200000.BroadcastsInDim S200000x1 (![0] : Fin 1 → Fin S200000x1.rank)
  bcast_S_S200000x165 : S_.BroadcastsInDim S200000x165 (![] : Fin 0 → Fin S200000x165.rank)
  bcast_S200000x1_S200000x165_0_1 : S200000x1.BroadcastsInDim S200000x165 (![0, 1] : Fin 2 → Fin S200000x165.rank)
  shapeCasts_S256_S1x256 : S256.ShapeCasts S1x256
  inb_S8000x165_S8000x165_0_0 : ∀ a, (![0, 0] : Fin 2 → Nat) a + S8000x165.size a ≤ S8000x165.size a
  h_S8000x165 : 0 < S8000x165.numel
  shapeCasts_S8000x165_S8000x165 : S8000x165.ShapeCasts S8000x165
  inb_S165x256_S165x256_0_0 : ∀ a, (![0, 0] : Fin 2 → Nat) a + S165x256.size a ≤ S165x256.size a
  h_S165x256 : 0 < S165x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S8000x256 : S1x256.Broadcasts S8000x256
  inb_S256x2_S256x2_0_0 : ∀ a, (![0, 0] : Fin 2 → Nat) a + S256x2.size a ≤ S256x2.size a
  h_S256x2 : 0 < S256x2.numel
  inb_S8000x2_S8000x2_0_0 : ∀ a, (![0, 0] : Fin 2 → Nat) a + S8000x2.size a ≤ S8000x2.size a
  h_S8000x2 : 0 < S8000x2.numel
  bcast_S_S200000x2 : S_.BroadcastsInDim S200000x2 (![] : Fin 0 → Fin S200000x2.rank)
  bcast_S200000x1_S200000x2_0_1 : S200000x1.BroadcastsInDim S200000x2 (![0, 1] : Fin 2 → Fin S200000x2.rank)
  bcast_S2_S1x2_1 : S2.BroadcastsInDim S1x2 (![1] : Fin 1 → Fin S1x2.rank)
  bcast_S1x2_S200000x2_0_1 : S1x2.BroadcastsInDim S200000x2 (![0, 1] : Fin 2 → Fin S200000x2.rank)
  scatter_S200000_S500000x1_S500000_n_0_0_1_wf : ScatterDims.WF S200000 S500000x1 S500000 [] [0] [0] 1
  gather_S200000x165_S500000x1_S500000x165_1_0_n_n_0_1_1165_wf : GatherDims.WF S200000x165 S500000x1 S500000x165 [1] [0] [] [0] [] 1 ![1, 165]
  scatter_S200000x165_S500000x1_S500000x165_1_0_0_1_wf : ScatterDims.WF S200000x165 S500000x1 S500000x165 [1] [0] [0] 1
  dot_S8000x165_S165x256_S8000x256_1_0_0_1_n_n_wf : DotDims.WF S8000x165 S165x256 S8000x256 [1] [0] [0] [1] [] []
  dot_S8000x256_S256x2_S8000x2_1_0_0_1_n_n_wf : DotDims.WF S8000x256 S256x2 S8000x2 [1] [0] [0] [1] [] []
  gather_S200000x2_S500000x1_S500000x2_1_0_n_n_0_1_12_wf : GatherDims.WF S200000x2 S500000x1 S500000x2 [1] [0] [] [0] [] 1 ![1, 2]
  scatter_S200000x2_S500000x1_S500000x2_1_0_0_1_wf : ScatterDims.WF S200000x2 S500000x1 S500000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x165.size a ≤ S200000x165.size a
  hwx0_0 : ∀ i : grid0.Coords, EltTy.bits .f32 = 32 ∨ (Rect.block (s := S200000x165) S8000x165.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x165.size a ≤ S200000x165.size a
  hwx0_1 : ∀ i : grid0.Coords, EltTy.bits .f32 = 32 ∨ (Rect.block (s := S200000x165) S8000x165.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S165x256.size a ≤ S165x256.size a
  hwx0_2 : ∀ i : grid0.Coords, EltTy.bits .f32 = 32 ∨ (Rect.block (s := S165x256) S165x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S165x256.size a ≤ S165x256.size a
  hwx0_3 : ∀ i : grid0.Coords, EltTy.bits .f32 = 32 ∨ (Rect.block (s := S165x256) S165x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x2.size a ≤ S256x2.size a
  hwx0_5 : ∀ i : grid0.Coords, EltTy.bits .f32 = 32 ∨ (Rect.block (s := S256x2) S256x2.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x2.size a ≤ S256x2.size a
  hwx0_6 : ∀ i : grid0.Coords, EltTy.bits .f32 = 32 ∨ (Rect.block (s := S256x2) S256x2.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8000x2.size a ≤ S200000x2.size a
  hwx0_7 : ∀ i : grid0.Coords, EltTy.bits .f32 = 32 ∨ (Rect.block (s := S200000x2) S8000x2.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8000x2.size a ≤ S200000x2.size a
  hwx0_8 : ∀ i : grid0.Coords, EltTy.bits .f32 = 32 ∨ (Rect.block (s := S200000x2) S8000x2.size (cc0_transform_8 i) (hinb0_8 i)).WholeWords (EltTy.packing .f32)

variable [Facts₀]

def scatter_S200000_S500000x1_S500000_n_0_0_1 : ScatterDims S200000 S500000x1 S500000 where
  updateWindowDims := []
  insertedWindowDims := [0]
  scatterDimsToOperandDims := [0]
  indexVectorDim := 1
  wf := scatter_S200000_S500000x1_S500000_n_0_0_1_wf
def gather_S200000x165_S500000x1_S500000x165_1_0_n_n_0_1_1165 : GatherDims S200000x165 S500000x1 S500000x165 where
  offsetDims := [1]
  collapsedSliceDims := [0]
  operandBatchingDims := []
  startIndicesBatchingDims := []
  startIndexMap := [0]
  indexVectorDim := 1
  sliceSizes := ![1, 165]
  wf := gather_S200000x165_S500000x1_S500000x165_1_0_n_n_0_1_1165_wf
def scatter_S200000x165_S500000x1_S500000x165_1_0_0_1 : ScatterDims S200000x165 S500000x1 S500000x165 where
  updateWindowDims := [1]
  insertedWindowDims := [0]
  scatterDimsToOperandDims := [0]
  indexVectorDim := 1
  wf := scatter_S200000x165_S500000x1_S500000x165_1_0_0_1_wf
def dot_S8000x165_S165x256_S8000x256_1_0_0_1_n_n : DotDims S8000x165 S165x256 S8000x256 where
  lhsContracting := [1]
  rhsContracting := [0]
  lhsNonContracting := [0]
  rhsNonContracting := [1]
  lhsBatch := []
  rhsBatch := []
  wf := dot_S8000x165_S165x256_S8000x256_1_0_0_1_n_n_wf
def dot_S8000x256_S256x2_S8000x2_1_0_0_1_n_n : DotDims S8000x256 S256x2 S8000x2 where
  lhsContracting := [1]
  rhsContracting := [0]
  lhsNonContracting := [0]
  rhsNonContracting := [1]
  lhsBatch := []
  rhsBatch := []
  wf := dot_S8000x256_S256x2_S8000x2_1_0_0_1_n_n_wf
def gather_S200000x2_S500000x1_S500000x2_1_0_n_n_0_1_12 : GatherDims S200000x2 S500000x1 S500000x2 where
  offsetDims := [1]
  collapsedSliceDims := [0]
  operandBatchingDims := []
  startIndicesBatchingDims := []
  startIndexMap := [0]
  indexVectorDim := 1
  sliceSizes := ![1, 2]
  wf := gather_S200000x2_S500000x1_S500000x2_1_0_n_n_0_1_12_wf
def scatter_S200000x2_S500000x1_S500000x2_1_0_0_1 : ScatterDims S200000x2 S500000x1 S500000x2 where
  updateWindowDims := [1]
  insertedWindowDims := [0]
  scatterDimsToOperandDims := [0]
  indexVectorDim := 1
  wf := scatter_S200000x2_S500000x1_S500000x2_1_0_0_1_wf

abbrev win0_0 : Pipeline.Window sig grid0 :=
  Pipeline.Window.ofSpec (Memref.whole main_v22) S8000x165.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8000x165.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S165x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S165x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x2.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256x2.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v24_0) S8000x2.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v24_1) S8000x2.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S200000x165 : Shape := ⟨2, ![200000, 165]⟩
abbrev S2x500000 : Shape := ⟨2, ![2, 500000]⟩
abbrev S165x256 : Shape := ⟨2, ![165, 256]⟩
abbrev S256 : Shape := ⟨1, ![256]⟩
abbrev S256x2 : Shape := ⟨2, ![256, 2]⟩
abbrev S2 : Shape := ⟨1, ![2]⟩
abbrev S1x500000 : Shape := ⟨2, ![1, 500000]⟩
abbrev S500000 : Shape := ⟨1, ![500000]⟩
abbrev S_ : Shape := ⟨0, ![]⟩
abbrev S200000 : Shape := ⟨1, ![200000]⟩
abbrev S500000x1 : Shape := ⟨2, ![500000, 1]⟩
abbrev S500000x165 : Shape := ⟨2, ![500000, 165]⟩
abbrev S200000x1 : Shape := ⟨2, ![200000, 1]⟩
abbrev S200000x256 : Shape := ⟨2, ![200000, 256]⟩
abbrev S1x256 : Shape := ⟨2, ![1, 256]⟩
abbrev S500000x256 : Shape := ⟨2, ![500000, 256]⟩
abbrev S200000x2 : Shape := ⟨2, ![200000, 2]⟩
abbrev S1x2 : Shape := ⟨2, ![1, 2]⟩

abbrev nBuf : Space → Nat
  | .hbm => 81
  | .vmem => 0
  | .smem => 0
  | _ => 0

abbrev bufTy : (tb : Table) → Fin (tcTables nBuf tb) → BufTy
  | .hbm, ⟨0, _⟩ => ⟨S200000x165, .f32⟩
  | .hbm, ⟨1, _⟩ => ⟨S2x500000, .i32⟩
  | .hbm, ⟨2, _⟩ => ⟨S165x256, .f32⟩
  | .hbm, ⟨3, _⟩ => ⟨S165x256, .f32⟩
  | .hbm, ⟨4, _⟩ => ⟨S256, .f32⟩
  | .hbm, ⟨5, _⟩ => ⟨S256x2, .f32⟩
  | .hbm, ⟨6, _⟩ => ⟨S256x2, .f32⟩
  | .hbm, ⟨7, _⟩ => ⟨S2, .f32⟩
  | .hbm, ⟨8, _⟩ => ⟨S1x500000, .i32⟩
  | .hbm, ⟨9, _⟩ => ⟨S500000, .i32⟩
  | .hbm, ⟨10, _⟩ => ⟨S1x500000, .i32⟩
  | .hbm, ⟨11, _⟩ => ⟨S500000, .i32⟩
  | .hbm, ⟨12, _⟩ => ⟨S_, .f32⟩
  | .hbm, ⟨13, _⟩ => ⟨S500000, .f32⟩
  | .hbm, ⟨14, _⟩ => ⟨S_, .f32⟩
  | .hbm, ⟨15, _⟩ => ⟨S200000, .f32⟩
  | .hbm, ⟨16, _⟩ => ⟨S500000x1, .i32⟩
  | .hbm, ⟨17, _⟩ => ⟨S200000, .f32⟩
  | .hbm, ⟨18, _⟩ => ⟨S_, .i32⟩
  | .hbm, ⟨19, _⟩ => ⟨S500000, .i32⟩
  | .hbm, ⟨20, _⟩ => ⟨S500000, .i1⟩
  | .hbm, ⟨21, _⟩ => ⟨S_, .i32⟩
  | .hbm, ⟨22, _⟩ => ⟨S500000, .i32⟩
  | .hbm, ⟨23, _⟩ => ⟨S500000, .i32⟩
  | .hbm, ⟨24, _⟩ => ⟨S500000, .i32⟩
  | .hbm, ⟨25, _⟩ => ⟨S500000x1, .i32⟩
  | .hbm, ⟨26, _⟩ => ⟨S500000x165, .f32⟩
  | .hbm, ⟨27, _⟩ => ⟨S_, .f32⟩
  | .hbm, ⟨28, _⟩ => ⟨S200000x165, .f32⟩
  | .hbm, ⟨29, _⟩ => ⟨S500000x1, .i32⟩
  | .hbm, ⟨30, _⟩ => ⟨S200000x165, .f32⟩
  | .hbm, ⟨31, _⟩ => ⟨S_, .f32⟩
  | .hbm, ⟨32, _⟩ => ⟨S200000, .f32⟩
  | .hbm, ⟨33, _⟩ => ⟨S200000, .f32⟩
  | .hbm, ⟨34, _⟩ => ⟨S200000x1, .f32⟩
  | .hbm, ⟨35, _⟩ => ⟨S200000x165, .f32⟩
  | .hbm, ⟨36, _⟩ => ⟨S200000x165, .f32⟩
  | .hbm, ⟨37, _⟩ => ⟨S200000x256, .f32⟩
  | .hbm, ⟨38, _⟩ => ⟨S200000x256, .f32⟩
  | .hbm, ⟨39, _⟩ => ⟨S200000x256, .f32⟩
  | .hbm, ⟨40, _⟩ => ⟨S1x256, .f32⟩
  | .hbm, ⟨41, _⟩ => ⟨S200000x256, .f32⟩
  | .hbm, ⟨42, _⟩ => ⟨S200000x256, .f32⟩
  | .hbm, ⟨43, _⟩ => ⟨S_, .f32⟩
  | .hbm, ⟨44, _⟩ => ⟨S200000x256, .f32⟩
  | .hbm, ⟨45, _⟩ => ⟨S200000x256, .f32⟩
  | .hbm, ⟨46, _⟩ => ⟨S1x500000, .i32⟩
  | .hbm, ⟨47, _⟩ => ⟨S500000, .i32⟩
  | .hbm, ⟨48, _⟩ => ⟨S1x500000, .i32⟩
  | .hbm, ⟨49, _⟩ => ⟨S500000, .i32⟩
  | .hbm, ⟨50, _⟩ => ⟨S_, .f32⟩
  | .hbm, ⟨51, _⟩ => ⟨S500000, .f32⟩
  | .hbm, ⟨52, _⟩ => ⟨S_, .f32⟩
  | .hbm, ⟨53, _⟩ => ⟨S200000, .f32⟩
  | .hbm, ⟨54, _⟩ => ⟨S500000x1, .i32⟩
  | .hbm, ⟨55, _⟩ => ⟨S200000, .f32⟩
  | .hbm, ⟨56, _⟩ => ⟨S_, .i32⟩
  | .hbm, ⟨57, _⟩ => ⟨S500000, .i32⟩
  | .hbm, ⟨58, _⟩ => ⟨S500000, .i1⟩
  | .hbm, ⟨59, _⟩ => ⟨S_, .i32⟩
  | .hbm, ⟨60, _⟩ => ⟨S500000, .i32⟩
  | .hbm, ⟨61, _⟩ => ⟨S500000, .i32⟩
  | .hbm, ⟨62, _⟩ => ⟨S500000, .i32⟩
  | .hbm, ⟨63, _⟩ => ⟨S500000x1, .i32⟩
  | .hbm, ⟨64, _⟩ => ⟨S500000x256, .f32⟩
  | .hbm, ⟨65, _⟩ => ⟨S_, .f32⟩
  | .hbm, ⟨66, _⟩ => ⟨S200000x256, .f32⟩
  | .hbm, ⟨67, _⟩ => ⟨S500000x1, .i32⟩
  | .hbm, ⟨68, _⟩ => ⟨S200000x256, .f32⟩
  | .hbm, ⟨69, _⟩ => ⟨S_, .f32⟩
  | .hbm, ⟨70, _⟩ => ⟨S200000, .f32⟩
  | .hbm, ⟨71, _⟩ => ⟨S200000, .f32⟩
  | .hbm, ⟨72, _⟩ => ⟨S200000x1, .f32⟩
  | .hbm, ⟨73, _⟩ => ⟨S200000x256, .f32⟩
  | .hbm, ⟨74, _⟩ => ⟨S200000x256, .f32⟩
  | .hbm, ⟨75, _⟩ => ⟨S200000x2, .f32⟩
  | .hbm, ⟨76, _⟩ => ⟨S200000x2, .f32⟩
  | .hbm, ⟨77, _⟩ => ⟨S200000x2, .f32⟩
  | .hbm, ⟨78, _⟩ => ⟨S1x2, .f32⟩
  | .hbm, ⟨79, _⟩ => ⟨S200000x2, .f32⟩
  | .hbm, ⟨80, _⟩ => ⟨S200000x2, .f32⟩
  | _, _ => ⟨S200000x165, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_4 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_6 : Ref sig .tc := ⟨.hbm, 56, rfl⟩
abbrev main_v38 : Ref sig .tc := ⟨.hbm, 57, rfl⟩
abbrev main_v39 : Ref sig .tc := ⟨.hbm, 58, rfl⟩
abbrev main_c_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S_S200000 : S_.BroadcastsInDim S200000 (![] : Fin 0 → Fin S200000.rank)
  bcast_S500000_S500000x1_0 : S500000.BroadcastsInDim S500000x1 (![0] : Fin 1 → Fin S500000x1.rank)
  bcast_S_S200000x165 : S_.BroadcastsInDim S200000x165 (![] : Fin 0 → Fin S200000x165.rank)
  bcast_S200000_S200000x1_0 : S200000.BroadcastsInDim S200000x1 (![0] : Fin 1 → Fin S200000x1.rank)
  bcast_S200000x1_S200000x165_0_1 : S200000x1.BroadcastsInDim S200000x165 (![0, 1] : Fin 2 → Fin S200000x165.rank)
  bcast_S256_S1x256_1 : S256.BroadcastsInDim S1x256 (![1] : Fin 1 → Fin S1x256.rank)
  bcast_S1x256_S200000x256_0_1 : S1x256.BroadcastsInDim S200000x256 (![0, 1] : Fin 2 → Fin S200000x256.rank)
  bcast_S_S200000x256 : S_.BroadcastsInDim S200000x256 (![] : Fin 0 → Fin S200000x256.rank)
  bcast_S200000x1_S200000x256_0_1 : S200000x1.BroadcastsInDim S200000x256 (![0, 1] : Fin 2 → Fin S200000x256.rank)
  bcast_S2_S1x2_1 : S2.BroadcastsInDim S1x2 (![1] : Fin 1 → Fin S1x2.rank)
  bcast_S1x2_S200000x2_0_1 : S1x2.BroadcastsInDim S200000x2 (![0, 1] : Fin 2 → Fin S200000x2.rank)
  scatter_S200000_S500000x1_S500000_n_0_0_1_wf : ScatterDims.WF S200000 S500000x1 S500000 [] [0] [0] 1
  gather_S200000x165_S500000x1_S500000x165_1_0_n_n_0_1_1165_wf : GatherDims.WF S200000x165 S500000x1 S500000x165 [1] [0] [] [0] [] 1 ![1, 165]
  scatter_S200000x165_S500000x1_S500000x165_1_0_0_1_wf : ScatterDims.WF S200000x165 S500000x1 S500000x165 [1] [0] [0] 1
  dot_S200000x165_S165x256_S200000x256_1_0_0_1_n_n_wf : DotDims.WF S200000x165 S165x256 S200000x256 [1] [0] [0] [1] [] []
  gather_S200000x256_S500000x1_S500000x256_1_0_n_n_0_1_1256_wf : GatherDims.WF S200000x256 S500000x1 S500000x256 [1] [0] [] [0] [] 1 ![1, 256]
  scatter_S200000x256_S500000x1_S500000x256_1_0_0_1_wf : ScatterDims.WF S200000x256 S500000x1 S500000x256 [1] [0] [0] 1
  dot_S200000x256_S256x2_S200000x2_1_0_0_1_n_n_wf : DotDims.WF S200000x256 S256x2 S200000x2 [1] [0] [0] [1] [] []

variable [Facts₀]

def scatter_S200000_S500000x1_S500000_n_0_0_1 : ScatterDims S200000 S500000x1 S500000 where
  updateWindowDims := []
  insertedWindowDims := [0]
  scatterDimsToOperandDims := [0]
  indexVectorDim := 1
  wf := scatter_S200000_S500000x1_S500000_n_0_0_1_wf
def gather_S200000x165_S500000x1_S500000x165_1_0_n_n_0_1_1165 : GatherDims S200000x165 S500000x1 S500000x165 where
  offsetDims := [1]
  collapsedSliceDims := [0]
  operandBatchingDims := []
  startIndicesBatchingDims := []
  startIndexMap := [0]
  indexVectorDim := 1
  sliceSizes := ![1, 165]
  wf := gather_S200000x165_S500000x1_S500000x165_1_0_n_n_0_1_1165_wf
def scatter_S200000x165_S500000x1_S500000x165_1_0_0_1 : ScatterDims S200000x165 S500000x1 S500000x165 where
  updateWindowDims := [1]
  insertedWindowDims := [0]
  scatterDimsToOperandDims := [0]
  indexVectorDim := 1
  wf := scatter_S200000x165_S500000x1_S500000x165_1_0_0_1_wf
def dot_S200000x165_S165x256_S200000x256_1_0_0_1_n_n : DotDims S200000x165 S165x256 S200000x256 where
  lhsContracting := [1]
  rhsContracting := [0]
  lhsNonContracting := [0]
  rhsNonContracting := [1]
  lhsBatch := []
  rhsBatch := []
  wf := dot_S200000x165_S165x256_S200000x256_1_0_0_1_n_n_wf
def gather_S200000x256_S500000x1_S500000x256_1_0_n_n_0_1_1256 : GatherDims S200000x256 S500000x1 S500000x256 where
  offsetDims := [1]
  collapsedSliceDims := [0]
  operandBatchingDims := []
  startIndicesBatchingDims := []
  startIndexMap := [0]
  indexVectorDim := 1
  sliceSizes := ![1, 256]
  wf := gather_S200000x256_S500000x1_S500000x256_1_0_n_n_0_1_1256_wf
def scatter_S200000x256_S500000x1_S500000x256_1_0_0_1 : ScatterDims S200000x256 S500000x1 S500000x256 where
  updateWindowDims := [1]
  insertedWindowDims := [0]
  scatterDimsToOperandDims := [0]
  indexVectorDim := 1
  wf := scatter_S200000x256_S500000x1_S500000x256_1_0_0_1_wf
def dot_S200000x256_S256x2_S200000x2_1_0_0_1_n_n : DotDims S200000x256 S256x2 S200000x2 where
  lhsContracting := [1]
  rhsContracting := [0]
  lhsNonContracting := [0]
  rhsNonContracting := [1]
  lhsBatch := []
  rhsBatch := []
  wf := dot_S200000x256_S256x2_S200000x2_1_0_0_1_n_n_wf

class Facts : Prop extends Facts₀ where

variable [Facts]
-- ==== Proof.Spec.lean ====
/-
  The two dense pieces of a two-layer mean-aggregating graph network, index by index on the extended reals.

  `hidden a x wl wr b` is the first layer's activation for a stack of `M` nodes: entry `(n, k)` is
  `max (∑ f, a (n, f) · wl (f, k) + ∑ f, x (n, f) · wr (f, k) + b (0, k)) 0`, where row `n` of `a` is the node's
  aggregated neighbourhood and row `n` of `x` its own features. `proj h w` is a projection of the activation to the
  classes: entry `(n, c)` is `∑ k, h (n, k) · w (k, c)`. Both read only row `n` of their row-indexed operands, so the
  same definitions describe a block of rows and the whole array.
-/
import Idealize.ShloMosaic.PureOps.Ideal.Laws
import Idealize.ShloMosaic.Lib.ValueIdx

noncomputable section

open scoped BigOperators

namespace Cert.Sage

open Idealize.ShloMosaic Idealize.ShloMosaic.ValueIdx

/-- The first layer's activation of `M` nodes with 165 features, 256 hidden units. -/
def hidden {M : ℕ} (a x : (⟨2, ![M, 165]⟩ : Shape).Idx → EReal) (wl wr : (⟨2, ![165, 256]⟩ : Shape).Idx → EReal)
    (b : (⟨2, ![1, 256]⟩ : Shape).Idx → EReal) : (⟨2, ![M, 256]⟩ : Shape).Idx → EReal :=
  fun j => max ((∑ f : Fin 165, a (ix2 (j 0) f) * wl (ix2 f (j 1)))
    + (∑ f : Fin 165, x (ix2 (j 0) f) * wr (ix2 f (j 1))) + b (ix2 (0 : Fin 1) (j 1))) 0

/-- A projection of the activation of `M` nodes to the two classes. -/
def proj {M : ℕ} (h : (⟨2, ![M, 256]⟩ : Shape).Idx → EReal) (w : (⟨2, ![256, 2]⟩ : Shape).Idx → EReal) :
    (⟨2, ![M, 2]⟩ : Shape).Idx → EReal :=
  fun j => ∑ k : Fin 256, h (ix2 (j 0) k) * w (ix2 k (j 1))

theorem hidden_apply {M : ℕ} (a x : (⟨2, ![M, 165]⟩ : Shape).Idx → EReal)
    (wl wr : (⟨2, ![165, 256]⟩ : Shape).Idx → EReal) (b : (⟨2, ![1, 256]⟩ : Shape).Idx → EReal) (n : Fin M) (k : Fin 256) :
    hidden a x wl wr b (ix2 n k) = max ((∑ f : Fin 165, a (ix2 n f) * wl (ix2 f k))
      + (∑ f : Fin 165, x (ix2 n f) * wr (ix2 f k)) + b (ix2 (0 : Fin 1) k)) 0 := rfl

theorem proj_apply {M : ℕ} (h : (⟨2, ![M, 256]⟩ : Shape).Idx → EReal) (w : (⟨2, ![256, 2]⟩ : Shape).Idx → EReal)
    (n : Fin M) (c : Fin 2) : proj h w (ix2 n c) = ∑ k : Fin 256, h (ix2 n k) * w (ix2 k c) := rfl

end Cert.Sage

end
-- ==== Proof.LibScatterAddRows.lean ====
/-
  An accumulating row scatter `x.at[idx].add(u)` of a table `x : [N, C]` on the host, on the extended reals, read at
  an index.

  Summing rows `u : [E, C]` into the rows of `x` that an integer vector `idx` names lowers to a scatter whose body is
  an addition, with one inserted window axis (the table's rows), one update window axis (the columns: a whole row of
  `C` entries per scatter index) and a trailing index-vector axis of extent one on the scatter indices. Update entry
  `(e, c)` lands on table entry `(i, c)` exactly when the scatter index `idx (e, 0)`, read as a signed integer, is
  `i`; an index outside `[0, N)` lands nowhere and its row is dropped. So entry `(i, c)` of the result is

      x (i, c) + ∑ over the edges e with idx (e, 0) = i of u (e, c),

  and the set of such `e` does not depend on the width `C`: the same rows are summed whatever is carried along them.
  The statement takes the dimension numbers as a record built from the literal lists; a printed record with the same
  lists is equal to it by `rfl`.
-/
import Idealize.ShloMosaic.PureOps.Ideal.Laws
import Idealize.ShloMosaic.Lib.ValueIdx

noncomputable section

open scoped BigOperators

namespace Cert.LibScatterAddRows

open Idealize.ShloMosaic Idealize.ShloMosaic.ValueIdx

/-- The dimension numbers of `x.at[idx].add(u)` for a table `[N, C]`, scatter indices `[E, 1]`, updates `[E, C]`. -/
abbrev rowDims (N C E : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The rows `e` of the updates whose scatter index, read signed, is `i`. -/
def landing {E w : ℕ} (idx : IVec ⟨2, ![E, 1]⟩ w) (i : ℕ) : Finset (Fin E) :=
  Finset.univ.filter fun e => (idx (ix2 e (0 : Fin 1))).toInt = (i : ℤ)

theorem one_not_mem_zero : (1 : Fin 2) ∉ ([0] : List (Fin 2)) :=
  fun h => absurd (List.mem_singleton.mp h) (by decide)

section Coordinates
variable {N C E w : ℕ} (wf : ScatterDims.WF ⟨2, ![N, C]⟩ ⟨2, ![E, 1]⟩ ⟨2, ![E, C]⟩ [1] [0] [0] 1)
  (idx : IVec ⟨2, ![E, 1]⟩ w) (e : Fin E) (c : Fin C)

/-- On the table's row axis the window starts at the scatter index `idx (e, 0)`, read signed. -/
theorem start_row : (rowDims N C E wf).start (ix2 e c) idx 0 = (idx (ix2 e (0 : Fin 1))).toInt := by
  unfold ScatterDims.start
  rw [dif_pos (show (0 : Fin 2) ∈ (rowDims N C E wf).scatterDimsToOperandDims from List.mem_singleton.mpr rfl)]
  have hsi : (rowDims N C E wf).siIdx (ix2 e c) ⟨List.idxOf (0 : Fin 2) (rowDims N C E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis it starts at zero: the scatter index does not name that axis. -/
theorem start_col : (rowDims N C E wf).start (ix2 e c) idx 1 = 0 := by
  unfold ScatterDims.start
  rw [dif_neg (show (1 : Fin 2) ∉ (rowDims N C E wf).scatterDimsToOperandDims from one_not_mem_zero)]

theorem zero_not_mem_sKept : (0 : Fin 2) ∉ (rowDims N C E wf).sKept := by
  simp [ScatterDims.sKept, Shape.kept]

theorem one_mem_sKept : (1 : Fin 2) ∈ (rowDims N C E wf).sKept := by
  simp [ScatterDims.sKept, Shape.kept]

/-- The row axis is inserted: the window coordinate there is zero. -/
theorem window_row : (rowDims N C E wf).window (ix2 e c) 0 = 0 := by
  unfold ScatterDims.window
  rw [dif_neg (zero_not_mem_sKept wf)]

/-- The column axis is the one window axis: the window coordinate there is the update's column. -/
theorem window_col : (rowDims N C E wf).window (ix2 e c) 1 = c.val := by
  unfold ScatterDims.window
  rw [dif_pos (one_mem_sKept wf)]
  rfl

end Coordinates

section Landing
variable {N C E w : ℕ} (wf : ScatterDims.WF ⟨2, ![N, C]⟩ ⟨2, ![E, 1]⟩ ⟨2, ![E, C]⟩ [1] [0] [0] 1)
  (idx : IVec ⟨2, ![E, 1]⟩ w)

/-- Update entry `(e, c)` lands on table entry `(i, c')` exactly when the scatter index of row `e` is `i` and the
    column is kept. -/
theorem resultIdx?_row (e : Fin E) (c : Fin C) (i : Fin N) (c' : Fin C) :
    (rowDims N C E wf).resultIdx? (ix2 e c) idx = some (ix2 i c')
      ↔ (idx (ix2 e (0 : Fin 1))).toInt = (i.val : ℤ) ∧ c = c' := by
  unfold ScatterDims.resultIdx?
  split
  · rename_i h
    rw [Option.some.injEq]
    have hr := h 0
    rw [start_row, window_row] at hr
    constructor
    · intro hf
      have h0 : ((rowDims N C E wf).start (ix2 e c) idx 0 + ((rowDims N C E wf).window (ix2 e c) 0 : ℕ)).toNat = i.val :=
        congrArg (fun f => (f 0).val) hf
      have h1 : ((rowDims N C E wf).start (ix2 e c) idx 1 + ((rowDims N C E wf).window (ix2 e c) 1 : ℕ)).toNat = c'.val :=
        congrArg (fun f => (f 1).val) hf
      rw [start_row, window_row] at h0
      rw [start_col, window_col] at h1
      refine ⟨by omega, Fin.ext (by omega)⟩
    · rintro ⟨h0, rfl⟩
      funext a
      refine Fin.ext ?_
      match a with
      | ⟨0, _⟩ =>
        show ((rowDims N C E wf).start (ix2 e c) idx 0 + ((rowDims N C E wf).window (ix2 e c) 0 : ℕ)).toNat = i.val
        rw [start_row, window_row]; omega
      | ⟨1, _⟩ =>
        show ((rowDims N C E wf).start (ix2 e c) idx 1 + ((rowDims N C E wf).window (ix2 e c) 1 : ℕ)).toNat = c.val
        rw [start_col, window_col]; omega
  · rename_i h
    constructor
    · intro hf; exact absurd hf (by simp)
    · rintro ⟨h0, rfl⟩
      exfalso
      apply h
      intro a
      match a with
      | ⟨0, _⟩ =>
        show 0 ≤ (rowDims N C E wf).start (ix2 e c) idx 0 + ((rowDims N C E wf).window (ix2 e c) 0 : ℕ)
          ∧ (rowDims N C E wf).start (ix2 e c) idx 0 + ((rowDims N C E wf).window (ix2 e c) 0 : ℕ) < (N : ℤ)
        rw [start_row, window_row, h0]
        have := i.isLt
        constructor <;> omega
      | ⟨1, _⟩ =>
        show 0 ≤ (rowDims N C E wf).start (ix2 e c) idx 1 + ((rowDims N C E wf).window (ix2 e c) 1 : ℕ)
          ∧ (rowDims N C E wf).start (ix2 e c) idx 1 + ((rowDims N C E wf).window (ix2 e c) 1 : ℕ) < (C : ℤ)
        rw [start_col, window_col]
        have := c.isLt
        constructor <;> omega

/-- THE ACCUMULATING SCATTER READ AT `(i, c)`: the table's entry plus the updates' column `c` summed over the rows
    whose scatter index is `i`. -/
theorem hostScatterAdd_rows_apply (x : (⟨2, ![N, C]⟩ : Shape).Idx → EReal) (upd : (⟨2, ![E, C]⟩ : Shape).Idx → EReal)
    (i : Fin N) (c : Fin C) :
    Ideal.hostScatterAdd (rowDims N C E wf) x idx upd (ix2 i c)
      = x (ix2 i c) + ∑ e ∈ landing idx i.val, upd (ix2 e c) := by
  unfold Ideal.hostScatterAdd
  congr 1
  refine Finset.sum_nbij' (fun j => (j 0 : Fin E)) (fun e => ix2 e c) ?_ ?_ ?_ ?_ ?_
  · intro j hj
    obtain ⟨e, c', rfl⟩ : ∃ (e : Fin E) (c' : Fin C), j = ix2 e c' := ⟨j 0, j 1, eq_ix2 j⟩
    have := (resultIdx?_row wf idx e c' i c).mp (Finset.mem_filter.mp hj).2
    exact Finset.mem_filter.mpr ⟨Finset.mem_univ _, this.1⟩
  · intro e he
    exact Finset.mem_filter.mpr ⟨Finset.mem_univ _,
      (resultIdx?_row wf idx e c i c).mpr ⟨(Finset.mem_filter.mp he).2, rfl⟩⟩
  · intro j hj
    obtain ⟨e, c', rfl⟩ : ∃ (e : Fin E) (c' : Fin C), j = ix2 e c' := ⟨j 0, j 1, eq_ix2 j⟩
    have := (resultIdx?_row wf idx e c' i c).mp (Finset.mem_filter.mp hj).2
    rw [this.2]
    rfl
  · intro e _
    rfl
  · intro j hj
    obtain ⟨e, c', rfl⟩ : ∃ (e : Fin E) (c' : Fin C), j = ix2 e c' := ⟨j 0, j 1, eq_ix2 j⟩
    have := (resultIdx?_row wf idx e c' i c).mp (Finset.mem_filter.mp hj).2
    rw [this.2]
    rfl

/-- The same for a printed `stablehlo.scatter` with an `add` body whose dimension numbers are these lists. -/
theorem scatterAdd_rows_apply {φ : FTy} (d : ScatterDims ⟨2, ![N, C]⟩ ⟨2, ![E, 1]⟩ ⟨2, ![E, C]⟩)
    (hd : d = rowDims N C E wf) (x : FVec Ideal ⟨2, ![N, C]⟩ φ) (upd : FVec Ideal ⟨2, ![E, C]⟩ φ)
    (i : Fin N) (c : Fin C) :
    Host.scatterAdd d x idx upd (ix2 i c) = x (ix2 i c) + ∑ e ∈ landing idx i.val, upd (ix2 e c) := by
  subst hd
  exact hostScatterAdd_rows_apply wf idx x upd i c

end Landing

end Cert.LibScatterAddRows

end
-- ==== Proof.LibGatherRows.lean ====
/-
  A row gather `x[idx]` of a table `x : [N, D]` on the host, read at an index.

  `x[idx]` for an integer array `idx` lowers to a gather with one collapsed axis (the table's rows), one offset axis (the
  table's columns, a whole row of `D` entries per start index) and a trailing index-vector axis of extent one on the
  start indices. Result entry `(r, d)` — or `(a, b, d)` for a matrix of indices — is the table's entry in column `d` of
  the row the start index names: the start index is read as a signed integer and clamped into `[0, N − 1]`, so every
  integer names a row. Both statements take the dimension numbers as a record built from the literal lists; a printed
  record with the same lists is equal to it by `rfl`.
-/
import Idealize.ShloMosaic.Lib.ValueIdx

noncomputable section

namespace Cert.LibGatherRows

open Idealize.ShloMosaic Idealize.ShloMosaic.ValueIdx

variable {α : Type}

/-- The row a start index names in a table of `N` rows: its signed value clamped into `[0, N − 1]`. -/
def clampRow {w : ℕ} (N : ℕ) (hN : 0 < N) (v : BitVec w) : Fin N := ⟨min v.toInt.toNat (N - 1), by omega⟩

theorem one_not_mem_zero : (1 : Fin 2) ∉ ([0] : List (Fin 2)) :=
  fun h => absurd (List.mem_singleton.mp h) (by decide)

/-! ## A vector of indices: table `[N, D]`, start indices `[R, 1]`, result `[R, D]` -/

/-- The dimension numbers of `x[idx]` for a table `[N, D]` and start indices `[R, 1]`. -/
abbrev rowDims2 (N D R : ℕ)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

section Rows2
variable {N D R w : ℕ}
  (wf : GatherDims.WF ⟨2, ![N, D]⟩ ⟨2, ![R, 1]⟩ ⟨2, ![R, D]⟩ [1] [0] [] [0] [] 1 ![1, D])
  (idx : IVec ⟨2, ![R, 1]⟩ w) (r : Fin R) (d : Fin D)

/-- On the table's row axis the operand coordinate is the clamped start index: no batching, and the axis is collapsed. -/
theorem rows2_axis0 :
    (rowDims2 N D R wf).start (ix2 r d) idx 0 + (rowDims2 N D R wf).batchCoord (ix2 r d) 0
      + (rowDims2 N D R wf).offCoord (ix2 r d) 0 = min (idx (ix2 r (0 : Fin 1))).toInt.toNat (N - 1) := by
  rw [GatherDims.batchCoord_eq_zero _ _ _ List.not_mem_nil, Nat.add_zero,
    GatherDims.offCoord_eq_zero _ _ _
      (fun h => ((GatherDims.mem_sKept _ _).mp h).1 (List.mem_singleton.mpr rfl)), Nat.add_zero]
  unfold GatherDims.start
  rw [dif_pos (show (0 : Fin 2) ∈ (rowDims2 N D R wf).startIndexMap from List.mem_singleton.mpr rfl)]
  have hsi : (rowDims2 N D R wf).siIdx (ix2 r d) ⟨List.idxOf (0 : Fin 2) (rowDims2 N D R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-- On the table's column axis it is the result's column: the start index map does not name the axis, and the axis is
    the one offset axis. -/
theorem rows2_axis1 :
    (rowDims2 N D R wf).start (ix2 r d) idx 1 + (rowDims2 N D R wf).batchCoord (ix2 r d) 1
      + (rowDims2 N D R wf).offCoord (ix2 r d) 1 = d.val := by
  rw [GatherDims.batchCoord_eq_zero _ _ _ List.not_mem_nil, Nat.add_zero]
  unfold GatherDims.start
  rw [dif_neg (show (1 : Fin 2) ∉ (rowDims2 N D R wf).startIndexMap from one_not_mem_zero), Nat.zero_add]
  unfold GatherDims.offCoord
  rw [dif_pos ((GatherDims.mem_sKept _ _).mpr ⟨one_not_mem_zero, List.not_mem_nil⟩)]
  rfl

end Rows2

/-- Entry `(r, d)` of the gather is the table's entry `(row, d)`, `row` the clamped start index `idx (r, 0)`. -/
theorem gather_rows2_apply {N D R w : ℕ} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (r : Fin R) (d : Fin D) :
    Host.gather (rowDims2 N D R wf) x idx (ix2 r d) = x (ix2 (clampRow N hN (idx (ix2 r (0 : Fin 1)))) d) := by
  unfold Host.gather
  congr 1
  funext a
  refine Fin.ext ?_
  match a with
  | ⟨0, _⟩ => exact rows2_axis0 wf idx r d
  | ⟨1, _⟩ => exact rows2_axis1 wf idx r d

/-! ## A matrix of indices: table `[N, D]`, start indices `[A, B, 1]`, result `[A, B, D]` -/

/-- The dimension numbers of `x[idx]` for a table `[N, D]` and start indices `[A, B, 1]`. -/
abbrev rowDims3 (N D A B : ℕ)
    (wf : GatherDims.WF ⟨2, ![N, D]⟩ ⟨3, ![A, B, 1]⟩ ⟨3, ![A, B, D]⟩ [2] [0] [] [0] [] 2 ![1, D]) :
    GatherDims ⟨2, ![N, D]⟩ ⟨3, ![A, B, 1]⟩ ⟨3, ![A, B, D]⟩ where
  offsetDims := [2]
  collapsedSliceDims := [0]
  operandBatchingDims := []
  startIndicesBatchingDims := []
  startIndexMap := [0]
  indexVectorDim := 2
  sliceSizes := ![1, D]
  wf := wf

section Rows3
variable {N D A B w : ℕ}
  (wf : GatherDims.WF ⟨2, ![N, D]⟩ ⟨3, ![A, B, 1]⟩ ⟨3, ![A, B, D]⟩ [2] [0] [] [0] [] 2 ![1, D])
  (idx : IVec ⟨3, ![A, B, 1]⟩ w) (a : Fin A) (b : Fin B) (d : Fin D)

/-- On the table's row axis the operand coordinate is the clamped start index. -/
theorem rows3_axis0 :
    (rowDims3 N D A B wf).start (ix3 a b d) idx 0 + (rowDims3 N D A B wf).batchCoord (ix3 a b d) 0
      + (rowDims3 N D A B wf).offCoord (ix3 a b d) 0 = min (idx (ix3 a b (0 : Fin 1))).toInt.toNat (N - 1) := by
  rw [GatherDims.batchCoord_eq_zero _ _ _ List.not_mem_nil, Nat.add_zero,
    GatherDims.offCoord_eq_zero _ _ _
      (fun h => ((GatherDims.mem_sKept _ _).mp h).1 (List.mem_singleton.mpr rfl)), Nat.add_zero]
  unfold GatherDims.start
  rw [dif_pos (show (0 : Fin 2) ∈ (rowDims3 N D A B wf).startIndexMap from List.mem_singleton.mpr rfl)]
  have hsi : (rowDims3 N D A B wf).siIdx (ix3 a b d) ⟨List.idxOf (0 : Fin 2) (rowDims3 N D A B wf).startIndexMap,
      List.idxOf_lt_length_iff.2 (List.mem_singleton.mpr rfl)⟩ = ix3 a b (0 : Fin 1) := by
    funext c; refine Fin.ext ?_
    match c with
    | ⟨0, _⟩ => rfl
    | ⟨1, _⟩ => rfl
    | ⟨2, _⟩ => rfl
  rw [hsi]
  rfl

/-- On the table's column axis it is the result's column. -/
theorem rows3_axis1 :
    (rowDims3 N D A B wf).start (ix3 a b d) idx 1 + (rowDims3 N D A B wf).batchCoord (ix3 a b d) 1
      + (rowDims3 N D A B wf).offCoord (ix3 a b d) 1 = d.val := by
  rw [GatherDims.batchCoord_eq_zero _ _ _ List.not_mem_nil, Nat.add_zero]
  unfold GatherDims.start
  rw [dif_neg (show (1 : Fin 2) ∉ (rowDims3 N D A B wf).startIndexMap from one_not_mem_zero), Nat.zero_add]
  unfold GatherDims.offCoord
  rw [dif_pos ((GatherDims.mem_sKept _ _).mpr ⟨one_not_mem_zero, List.not_mem_nil⟩)]
  rfl

end Rows3

/-- Entry `(a, b, d)` of the gather is the table's entry `(row, d)`, `row` the clamped start index `idx (a, b, 0)`. -/
theorem gather_rows3_apply {N D A B w : ℕ} (hN : 0 < N)
    (wf : GatherDims.WF ⟨2, ![N, D]⟩ ⟨3, ![A, B, 1]⟩ ⟨3, ![A, B, D]⟩ [2] [0] [] [0] [] 2 ![1, D])
    (x : (⟨2, ![N, D]⟩ : Shape).Idx → α) (idx : IVec ⟨3, ![A, B, 1]⟩ w) (a : Fin A) (b : Fin B) (d : Fin D) :
    Host.gather (rowDims3 N D A B wf) x idx (ix3 a b d) = x (ix2 (clampRow N hN (idx (ix3 a b (0 : Fin 1)))) d) := by
  unfold Host.gather
  congr 1
  funext ax
  refine Fin.ext ?_
  match ax with
  | ⟨0, _⟩ => exact rows3_axis0 wf idx a b d
  | ⟨1, _⟩ => exact rows3_axis1 wf idx a b d

end Cert.LibGatherRows

end
-- ==== Proof.LibPlainMatmul.lean ====
/-
  A plain matrix product `[M, K] · [K, N]` on the extended reals, accumulated into the zero matrix, read at the entry
  `(p, q)`: the sum over `k : Fin K` of `l (p, k) · r (k, q)`.

  The library states a `tpu.matmul` at an output index as a sum over the contraction shape's index set, with the
  operands read at `lhsIdx` / `rhsIdx`; for the dimension numbers `⟨[1], [0], [0], [1], [], []⟩` that index set is
  one axis of extent `K`, the left index is `(p, k)` and the right index is `(k, q)`. The statement takes any
  dimension record equal to `DotDims.plain M K N` (a record is determined by its six lists, so a printed one with these
  lists is equal to it by `rfl`).
-/
import Idealize.ShloMosaic.PureOps.Ideal.Laws
import Idealize.ShloMosaic.Lib.ValueIdx

noncomputable section

open scoped BigOperators

namespace Cert.LibPlainMatmul

open Idealize.ShloMosaic Idealize.ShloMosaic.ValueIdx

/-- The left operand's index of the plain product at output `(p, q)` and contraction coordinate `k` is `(p, k)`. -/
theorem plain_lhsIdx {M K N : ℕ} (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index there is `(k, q)`. -/
theorem plain_rhsIdx {M K N : ℕ} (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A plain `[M, K] · [K, N]` product into the zero accumulator, at `(p, q)`, is `∑ k, l (p, k) · r (k, q)`. -/
theorem matmul_plain_zero_apply {M K N : ℕ} {φ₁ φ₂ : FTy}
    (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (p : Fin M) (q : Fin N) :
    FloatOps.matmul D prec l r (constant ⟨2, ![M, N]⟩ .f32 0x00000000#32) (ix2 p q)
      = ∑ k : Fin K, l (ix2 p k) * r (ix2 k q) := by
  subst hD
  rw [Ideal.matmul_constant_zero_apply, ← Equiv.sum_comp (contrEquiv1 (DotDims.plain M K N) K rfl rfl).symm]
  refine Finset.sum_congr rfl fun k _ => ?_
  rw [plain_lhsIdx, plain_rhsIdx]

end Cert.LibPlainMatmul

end
-- ==== Proof.LibPlainDot.lean ====
/-
  A plain matrix product `[M, K] · [K, N]` computed on the host, on the extended reals, read at the entry `(p, q)`:
  the sum over `k : Fin K` of `l (p, k) · r (k, q)`.

  The library states a host `dot_general` at an output index as a sum over the contraction shape's index set, with
  the operands read at `lhsIdx` / `rhsIdx`; for the dimension numbers `⟨[1], [0], [0], [1], [], []⟩` that index set is
  one axis of extent `K`, the left index is `(p, k)` and the right index is `(k, q)` (the two index facts are those of
  the product accumulated into zero, `Cert.LibPlainMatmul`). The statement takes any dimension record equal to
  `DotDims.plain M K N` (a record is determined by its six lists, so a printed one with these lists is equal to it by
  `rfl`).
-/
import proofs.«101379_j652835029486_2_alg».proof.Proof.LibPlainMatmul
import Idealize.ShloMosaic.PureOps.Ideal.Laws
import Idealize.ShloMosaic.Lib.ValueIdx

noncomputable section

open scoped BigOperators

namespace Cert.LibPlainDot

open Idealize.ShloMosaic Idealize.ShloMosaic.ValueIdx Cert.LibPlainMatmul

/-- A plain `[M, K] · [K, N]` product on the host, at `(p, q)`, is `∑ k, l (p, k) · r (k, q)`. -/
theorem dot_plain_apply {M K N : ℕ} {φ₁ φ₂ : FTy}
    (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (p : Fin M) (q : Fin N) :
    Host.dotGeneral D prec l r (ix2 p q) = ∑ k : Fin K, l (ix2 p k) * r (ix2 k q) := by
  subst hD
  simp only [Host.dotGeneral]
  rw [Ideal.dotGeneral_apply, ← Equiv.sum_comp (contrEquiv1 (DotDims.plain M K N) K rfl rfl).symm]
  refine Finset.sum_congr rfl fun k _ => ?_
  rw [plain_lhsIdx, plain_rhsIdx]

end Cert.LibPlainDot

end
-- ==== Proof.LibSumSwap.lean ====
/-
  Two sums of products of REAL numbers, read on the extended reals, regrouped.

  For finite index types `ι`, `κ` and real families `a : ι → ℝ`, `x : ι → κ → ℝ`, `w : κ → ℝ`,

    ∑ d, (∑ k, a k · x k d) · w d  =  ∑ k, a k · (∑ d, x k d · w d)

  as extended reals: every term is the image of a real, the image of a finite real sum is the sum of the images, and on
  the reals the identity is distributivity and an exchange of the two sums. (On the extended reals themselves the
  identity fails at infinities: the hypothesis that every factor is real is what makes it true.)
-/
import Mathlib.Data.EReal.Basic
import Mathlib.Data.EReal.Operations
import Mathlib.Algebra.BigOperators.Ring.Finset
import Mathlib.Algebra.BigOperators.Group.Finset.Sigma

open scoped BigOperators

namespace SumSwap

/-- The image of a finite sum of reals is the sum of the images. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A product of two matrix-like sums of reals regrouped, on the extended reals. -/
theorem sum_mul_sum_swap {ι κ : Type*} [Fintype ι] [Fintype κ] (a : ι → ℝ) (x : ι → κ → ℝ) (w : κ → ℝ) :
    (∑ d, (∑ k, (a k : EReal) * (x k d : EReal)) * (w d : EReal))
      = ∑ k, (a k : EReal) * ∑ d, (x k d : EReal) * (w d : EReal) := by
  have hl : ∀ d, (∑ k, (a k : EReal) * (x k d : EReal)) * (w d : EReal) = (((∑ k, a k * x k d) * w d : ℝ) : EReal) := fun d => by
    rw [EReal.coe_mul, coe_sum]; simp only [EReal.coe_mul]
  have hr : ∀ k, (a k : EReal) * ∑ d, (x k d : EReal) * (w d : EReal) = ((a k * ∑ d, x k d * w d : ℝ) : EReal) := fun k => by
    rw [EReal.coe_mul, coe_sum]; simp only [EReal.coe_mul]
  simp only [hl, hr]
  rw [← coe_sum, ← coe_sum]
  congr 1
  simp only [Finset.sum_mul, Finset.mul_sum]
  rw [Finset.sum_comm]
  exact Finset.sum_congr rfl fun k _ => Finset.sum_congr rfl fun d _ => mul_assoc _ _ _

end SumSwap
-- ==== Proof.LibMeanProj.lean ====
/-
  Mean aggregation commutes with a linear projection, for real data read on the extended reals.

  Let `L` be a finite set of neighbours, `g e k` the `k`-th real feature of neighbour `e`, `w k` a real weight and
  `d ≠ 0` a real count. Projecting every neighbour first and averaging the projections,

      (0 + ∑ e ∈ L, ∑ k, g e k · w k) / d,

  gives what averaging every feature first and projecting the averages gives,

      ∑ k, ((0 + ∑ e ∈ L, g e k) / d) · w k.

  On the reals this is distributivity and an exchange of the two sums. On the extended reals it needs every factor to be
  real (at an infinity distributivity fails), which is why the statement is about images of reals. The division is the
  extended reals' own, `Ideal.div`, which by a nonzero real is the product with its reciprocal.

  Also here: the closure of "is the image of a real" under the operations a dense layer uses.
-/
import Idealize.ShloMosaic.PureOps.Ideal
import proofs.«101379_j652835029486_2_alg».proof.Proof.LibSumSwap

noncomputable section

open scoped BigOperators

namespace Cert.LibMeanProj

open Idealize.ShloMosaic

/-- A real divided by a nonzero real, on the extended reals, is the image of the real quotient. -/
theorem div_coe_coe (a d : ℝ) (hd : d ≠ 0) : Ideal.div (a : EReal) (d : EReal) = ((a / d : ℝ) : EReal) := by
  rw [Ideal.div_coe hd, ← EReal.coe_mul, mul_one_div]

/-- Projecting then averaging is averaging then projecting. -/
theorem mean_proj {ι κ : Type*} [Fintype κ] (L : Finset ι) (g : ι → κ → ℝ) (w : κ → ℝ) (d : ℝ) (hd : d ≠ 0) :
    Ideal.div (0 + ∑ e ∈ L, ∑ k, (g e k : EReal) * (w k : EReal)) (d : EReal)
      = ∑ k, Ideal.div (0 + ∑ e ∈ L, (g e k : EReal)) (d : EReal) * (w k : EReal) := by
  have hl : (∑ e ∈ L, ∑ k, (g e k : EReal) * (w k : EReal)) = ((∑ e ∈ L, ∑ k, g e k * w k : ℝ) : EReal) := by
    rw [SumSwap.coe_sum]
    refine Finset.sum_congr rfl fun e _ => ?_
    rw [SumSwap.coe_sum]
    exact Finset.sum_congr rfl fun k _ => (EReal.coe_mul _ _).symm
  have hk : ∀ k, Ideal.div (0 + ∑ e ∈ L, (g e k : EReal)) (d : EReal) * (w k : EReal)
      = (((∑ e ∈ L, g e k) / d * w k : ℝ) : EReal) := fun k => by
    rw [zero_add, ← SumSwap.coe_sum, div_coe_coe _ _ hd, ← EReal.coe_mul]
  rw [zero_add, hl, div_coe_coe _ _ hd]
  simp only [hk]
  rw [← SumSwap.coe_sum]
  congr 1
  rw [Finset.sum_comm, Finset.sum_div]
  refine Finset.sum_congr rfl fun k _ => ?_
  rw [← Finset.sum_mul, mul_div_right_comm]

/-! ## Images of reals -/

/-- An extended real that is the image of a real number. -/
def IsReal (v : EReal) : Prop := ∃ r : ℝ, v = (r : EReal)

theorem isReal_coe (r : ℝ) : IsReal (r : EReal) := ⟨r, rfl⟩
theorem isReal_zero : IsReal 0 := ⟨0, rfl⟩

theorem IsReal.add {a b : EReal} (ha : IsReal a) (hb : IsReal b) : IsReal (a + b) := by
  obtain ⟨x, rfl⟩ := ha; obtain ⟨y, rfl⟩ := hb; exact ⟨x + y, (EReal.coe_add x y).symm⟩

theorem IsReal.mul {a b : EReal} (ha : IsReal a) (hb : IsReal b) : IsReal (a * b) := by
  obtain ⟨x, rfl⟩ := ha; obtain ⟨y, rfl⟩ := hb; exact ⟨x * y, (EReal.coe_mul x y).symm⟩

theorem IsReal.max {a b : EReal} (ha : IsReal a) (hb : IsReal b) : IsReal (max a b) := by
  obtain ⟨x, rfl⟩ := ha; obtain ⟨y, rfl⟩ := hb
  rcases le_total x y with h | h
  · exact ⟨y, max_eq_right (EReal.coe_le_coe_iff.mpr h)⟩
  · exact ⟨x, max_eq_left (EReal.coe_le_coe_iff.mpr h)⟩

theorem IsReal.sum {ι : Type*} (s : Finset ι) (f : ι → EReal) (hf : ∀ i ∈ s, IsReal (f i)) : IsReal (∑ i ∈ s, f i) := by
  classical
  induction s using Finset.induction_on with
  | empty => exact ⟨0, by simp⟩
  | insert i s hi ih =>
    rw [Finset.sum_insert hi]
    exact (hf i (Finset.mem_insert_self i s)).add (ih fun j hj => hf j (Finset.mem_insert_of_mem hj))

theorem IsReal.div {a : EReal} (ha : IsReal a) (d : ℝ) (hd : d ≠ 0) : IsReal (Ideal.div a (d : EReal)) := by
  obtain ⟨x, rfl⟩ := ha; exact ⟨x / d, div_coe_coe x d hd⟩

end Cert.LibMeanProj

end
-- ==== Proof.Layer2.lean ====
/-
  The second layer of a two-layer mean-aggregating graph network, computed two ways, is one function.

  With `h : [N, 256]` the first layer's activation, `src`, `dst` the edges' endpoints and `deg` a node's (floored) in-degree,
  one program projects every node to the two classes first, `h · w2l`, then for every node `i` sums the projected rows
  of the edges arriving at `i` and divides by `deg i`; the other sums the 256-wide rows `h (src e, ·)` of those edges,
  divides by `deg i`, and projects the mean. Both then add the node's own projection `h · w2r` and a bias. The edges
  arriving at `i` are the same set in both (it does not depend on the width carried along an edge), the row an edge reads
  is the same, so entry `(i, c)` is

      (0 + ∑ e → i, ∑ k, h (src e, k) · w2l (k, c)) / deg i     against     ∑ k, ((0 + ∑ e → i, h (src e, k)) / deg i) · w2l (k, c),

  equal when `h`, `w2l` are real-valued and `deg i` is a nonzero real: mean aggregation commutes with a linear projection.
-/
import proofs.«101379_j652835029486_2_alg».proof.Proof.Spec
import proofs.«101379_j652835029486_2_alg».proof.Proof.LibScatterAddRows
import proofs.«101379_j652835029486_2_alg».proof.Proof.LibGatherRows
import proofs.«101379_j652835029486_2_alg».proof.Proof.LibPlainDot
import proofs.«101379_j652835029486_2_alg».proof.Proof.LibMeanProj

noncomputable section

open scoped BigOperators

namespace Cert.Sage

open Idealize.ShloMosaic Idealize.ShloMosaic.ValueIdx
open Cert.LibScatterAddRows Cert.LibGatherRows Cert.LibPlainDot Cert.LibMeanProj

/-- Aggregating the projected rows is projecting the aggregated rows. -/
theorem layer2 {N E : ℕ} (hN : 0 < N)
    (wfs2 : ScatterDims.WF ⟨2, ![N, 2]⟩ ⟨2, ![E, 1]⟩ ⟨2, ![E, 2]⟩ [1] [0] [0] 1)
    (wfs256 : ScatterDims.WF ⟨2, ![N, 256]⟩ ⟨2, ![E, 1]⟩ ⟨2, ![E, 256]⟩ [1] [0] [0] 1)
    (wfg2 : GatherDims.WF ⟨2, ![N, 2]⟩ ⟨2, ![E, 1]⟩ ⟨2, ![E, 2]⟩ [1] [0] [] [0] [] 1 ![1, 2])
    (wfg256 : GatherDims.WF ⟨2, ![N, 256]⟩ ⟨2, ![E, 1]⟩ ⟨2, ![E, 256]⟩ [1] [0] [] [0] [] 1 ![1, 256])
    (dS2 : ScatterDims ⟨2, ![N, 2]⟩ ⟨2, ![E, 1]⟩ ⟨2, ![E, 2]⟩) (hS2 : dS2 = rowDims N 2 E wfs2)
    (dS256 : ScatterDims ⟨2, ![N, 256]⟩ ⟨2, ![E, 1]⟩ ⟨2, ![E, 256]⟩) (hS256 : dS256 = rowDims N 256 E wfs256)
    (dG2 : GatherDims ⟨2, ![N, 2]⟩ ⟨2, ![E, 1]⟩ ⟨2, ![E, 2]⟩) (hG2 : dG2 = rowDims2 N 2 E wfg2)
    (dG256 : GatherDims ⟨2, ![N, 256]⟩ ⟨2, ![E, 1]⟩ ⟨2, ![E, 256]⟩) (hG256 : dG256 = rowDims2 N 256 E wfg256)
    (D : DotDims ⟨2, ![N, 256]⟩ ⟨2, ![256, 2]⟩ ⟨2, ![N, 2]⟩) (hD : D = DotDims.plain N 256 2)
    (dst src : IVec ⟨2, ![E, 1]⟩ 32)
    (h : FVec Ideal ⟨2, ![N, 256]⟩ .f32) (w2l w2r : FVec Ideal ⟨2, ![256, 2]⟩ .f32)
    (Z2 degB2 b : FVec Ideal ⟨2, ![N, 2]⟩ .f32) (Z256 degB256 : FVec Ideal ⟨2, ![N, 256]⟩ .f32)
    (dg : Fin N → ℝ) (hdg : ∀ i, dg i ≠ 0)
    (hdeg2 : ∀ i c, degB2 (ix2 i c) = (dg i : EReal)) (hdeg256 : ∀ i k, degB256 (ix2 i k) = (dg i : EReal))
    (hZ2 : ∀ j, Z2 j = 0) (hZ256 : ∀ j, Z256 j = 0)
    (hh : ∀ j, ∃ r : ℝ, h j = (r : EReal)) (hw : ∀ j, ∃ r : ℝ, w2l j = (r : EReal)) :
    addf (addf (Host.divf (Host.scatterAdd dS2 Z2 dst (Host.gather dG2 (proj h w2l) src)) degB2) (proj h w2r)) b
      = addf (addf (Host.dotGeneral D none (Host.divf (Host.scatterAdd dS256 Z256 dst (Host.gather dG256 h src)) degB256) w2l)
          (Host.dotGeneral D none h w2r)) b := by
  funext j
  obtain ⟨i, c, rfl⟩ : ∃ (i : Fin N) (c : Fin 2), j = ix2 i c := ⟨j 0, j 1, eq_ix2 j⟩
  choose hr hhr using hh
  choose wr hwr using hw
  show (Ideal.div (Host.scatterAdd dS2 Z2 dst (Host.gather dG2 (proj h w2l) src) (ix2 i c)) (degB2 (ix2 i c))
        + proj h w2r (ix2 i c)) + b (ix2 i c)
      = (Host.dotGeneral D none (Host.divf (Host.scatterAdd dS256 Z256 dst (Host.gather dG256 h src)) degB256) w2l (ix2 i c)
        + Host.dotGeneral D none h w2r (ix2 i c)) + b (ix2 i c)
  rw [dot_plain_apply D hD, dot_plain_apply D hD, scatterAdd_rows_apply wfs2 dst dS2 hS2, hZ2, hdeg2, proj_apply]
  congr 1
  congr 1
  have hg2 : ∀ e : Fin E, Host.gather dG2 (proj h w2l) src (ix2 e c)
      = ∑ k : Fin 256, (hr (ix2 (clampRow N hN (src (ix2 e (0 : Fin 1)))) k) : EReal) * (wr (ix2 k c) : EReal) := by
    intro e
    subst hG2
    rw [gather_rows2_apply hN, proj_apply]
    exact Finset.sum_congr rfl fun k _ => by rw [hhr, hwr]
  have hrhs : ∀ k : Fin 256,
      Host.divf (Host.scatterAdd dS256 Z256 dst (Host.gather dG256 h src)) degB256 (ix2 i k) * w2l (ix2 k c)
        = Ideal.div (0 + ∑ e ∈ landing dst i.val, (hr (ix2 (clampRow N hN (src (ix2 e (0 : Fin 1)))) k) : EReal)) (dg i : EReal)
            * (wr (ix2 k c) : EReal) := by
    intro k
    show Ideal.div (Host.scatterAdd dS256 Z256 dst (Host.gather dG256 h src) (ix2 i k)) (degB256 (ix2 i k)) * w2l (ix2 k c) = _
    rw [scatterAdd_rows_apply wfs256 dst dS256 hS256, hZ256, hdeg256, hwr]
    congr 3
    refine Finset.sum_congr rfl fun e _ => ?_
    subst hG256
    rw [gather_rows2_apply hN, hhr]
  simp only [hg2, hrhs]
  exact mean_proj (landing dst i.val) (fun e k => hr (ix2 (clampRow N hN (src (ix2 e (0 : Fin 1)))) k))
    (fun k => wr (ix2 k c)) (dg i) (hdg i)

end Cert.Sage

end
-- ==== Proof.Bridge.lean ====
/-
  The idealized kernel's result and the reference's result are one function of the arguments.

  Both programs compute the same first layer: the hidden activation `h = max (agg · w1l + x · w1r + b1) 0`, where `agg` is the
  mean of the neighbours' features (rows of `x` gathered along the edges' sources, summed at the edges' destinations, divided
  by the floored in-degree). They differ in the second layer only: the kernel projects every node to the two classes first
  (`h · w2l`, inside the kernel, beside `h · w2r`) and aggregates the projected rows on the host; the reference aggregates the
  256-wide rows of `h` and projects the mean. Mean aggregation commutes with a linear projection (`Cert.Sage.layer2`) when
  `h`, `w2l` are real-valued and the degree is a nonzero real — which is where the inputs' finiteness is used.

  The kernel's side is stated over the reference's own stages wherever the two programs spell the same host operation
  (the edge columns, the degree column, the bias broadcast, `agg`): those terms agree by unfolding.
-/
import proofs.«101379_j652835029486_2_alg».proof.Proof.Layer2
import proofs.«101379_j652835029486_2_alg».proof.Proof.Gen.KernelIdeal
import proofs.«101379_j652835029486_2_alg».proof.Proof.Gen.ReferenceIdeal.Read

noncomputable section

open scoped BigOperators

namespace Cert.Sage.Bridge

open Idealize.ShloMosaic Idealize.ShloMosaic.ValueIdx Cert.ReferenceIdeal Cert.ReferenceIdeal.Read

variable [Cert.KernelIdeal.Facts] [Cert.ReferenceIdeal.Facts]

/-! ## The reference's stages, typed -/

/-- The reference's hidden activation. -/
abbrev rH (x0 : FVec Ideal S200000x165 .f32) (x1 : IVec S2x500000 32) (x2 x3 : FVec Ideal S165x256 .f32) (x4 : FVec Ideal S256 .f32) :
    FVec Ideal S200000x256 .f32 := val_main_v29 (F := Ideal) x0 x1 x2 x3 x4
/-- The mean of the neighbours' features. -/
abbrev rAgg (x0 : FVec Ideal S200000x165 .f32) (x1 : IVec S2x500000 32) : FVec Ideal S200000x165 .f32 := val_main_v22 (F := Ideal) x0 x1
/-- The zero table the 256-wide rows are summed into. -/
abbrev rZ : FVec Ideal S200000x256 .f32 := val_main_v45 (F := Ideal)
/-- The floored in-degree as a column, and spread over 256 columns. -/
abbrev rDegCol (x1 : IVec S2x500000 32) : FVec Ideal S200000x1 .f32 := val_main_v50 (F := Ideal) x1
abbrev rDeg (x1 : IVec S2x500000 32) : FVec Ideal S200000x256 .f32 := val_main_v51 (F := Ideal) x1
/-- The second layer's bias spread over the nodes. -/
abbrev rB (x7 : FVec Ideal S2 .f32) : FVec Ideal S200000x2 .f32 := val_main_v57 (F := Ideal) x7
/-- The edges' destinations and (wrapped) sources as columns. -/
abbrev rDst (x1 : IVec S2x500000 32) : IVec S500000x1 32 := val_main_v46 (F := Ideal) x1
abbrev rSrc (x1 : IVec S2x500000 32) : IVec S500000x1 32 := val_main_v43 (F := Ideal) x1

/-- The reference's result is the second layer over its hidden activation, aggregated 256 wide and then projected. -/
theorem ref_out (x0 : FVec Ideal S200000x165 .f32) (x1 : IVec S2x500000 32) (x2 x3 : FVec Ideal S165x256 .f32)
    (x4 : FVec Ideal S256 .f32) (x5 x6 : FVec Ideal S256x2 .f32) (x7 : FVec Ideal S2 .f32) :
    (val_main_v58 (F := Ideal) x0 x1 x2 x3 x4 x5 x6 x7 : FVec Ideal S200000x2 .f32)
      = addf (addf (Host.dotGeneral dot_S200000x256_S256x2_S200000x2_1_0_0_1_n_n none
            (Host.divf (φ := .f32) (Host.scatterAdd (φ := .f32) scatter_S200000x256_S500000x1_S500000x256_1_0_0_1 rZ (rDst x1)
              (Host.gather gather_S200000x256_S500000x1_S500000x256_1_0_n_n_0_1_1256 (rH x0 x1 x2 x3 x4) (rSrc x1)))
              (rDeg x1)) x5)
          (Host.dotGeneral dot_S200000x256_S256x2_S200000x2_1_0_0_1_n_n none (rH x0 x1 x2 x3 x4) x6))
        (rB x7) := rfl

/-! ## The degree, read at a node -/

/-- The degree spread over 256 columns reads the degree vector at the node. -/
theorem rDeg_apply (x1 : IVec S2x500000 32) (i : Fin 200000) (k : Fin 256) :
    rDeg x1 (ix2 i k) = val_main_v49 (F := Ideal) x1 (ix1 i) := by
  show val_main_v51 (F := Ideal) x1 (ix2 i k) = _
  rw [val_main_v51_apply, val_main_v50_apply]
  exact congrArg _ (funext fun a => Fin.ext (by match a with | ⟨0, _⟩ => rfl))

/-- The degree column spread over the two class columns reads it at the node too. -/
theorem degB2_apply (x1 : IVec S2x500000 32) (i : Fin 200000) (c : Fin 2) :
    broadcastInDim Cert.KernelIdeal.S200000x2 ![0, 1] Cert.KernelIdeal.Facts₀.bcast_S200000x1_S200000x2_0_1 (rDegCol x1) (ix2 i c)
      = val_main_v49 (F := Ideal) x1 (ix1 i) := by
  rw [broadcastInDim_apply _ _ (rDegCol x1) (ix2 i c) (ix2 i (0 : Fin 1)) (fun a => by
    match a with
    | ⟨0, _⟩ => show i.val = if (200000 : Nat) = 1 then 0 else i.val; rw [if_neg (by decide)]
    | ⟨1, _⟩ => show 0 = if (1 : Nat) = 1 then 0 else c.val; rw [if_pos rfl])]
  show val_main_v50 (F := Ideal) x1 (ix2 i (0 : Fin 1)) = _
  rw [val_main_v50_apply]
  exact congrArg _ (funext fun a => Fin.ext (by match a with | ⟨0, _⟩ => rfl))

/-- The zero table the projected rows are summed into. -/
theorem z2_apply (j : Cert.KernelIdeal.S200000x2.Idx) :
    broadcastInDim Cert.KernelIdeal.S200000x2 ![] Cert.KernelIdeal.Facts₀.bcast_S_S200000x2
      (constant (F := Ideal) Cert.KernelIdeal.S_ .f32 0x00000000#32) j = 0 :=
  Ideal.ofBits_zero_f32

/-! ## The bridge -/

/-- The kernel's result — the projected rows aggregated on the host — is the reference's, given the first layer's facts:
    the reference's hidden activation is `hidden` of the aggregated features (`hH`) and is real-valued (`hHr`), the degree is a
    real at least one (`hdeg`), the 256-wide zero table is zero (`hZ`), and `w2l` is real-valued (`hx5`). -/
theorem bridge (x0 : FVec Ideal S200000x165 .f32) (x1 : IVec S2x500000 32) (x2 x3 : FVec Ideal S165x256 .f32)
    (x4 : FVec Ideal S256 .f32) (x5 x6 : FVec Ideal S256x2 .f32) (x7 : FVec Ideal S2 .f32)
    (hH : rH x0 x1 x2 x3 x4
      = hidden (rAgg x0 x1) x0 x2 x3 (shapeCast Cert.KernelIdeal.S1x256 x4 Cert.KernelIdeal.Facts₀.shapeCasts_S256_S1x256))
    (hHr : ∀ j, ∃ r : ℝ, rH x0 x1 x2 x3 x4 j = (r : EReal))
    (hdeg : ∀ j : S200000.Idx, ∃ r : ℝ, 1 ≤ r ∧ val_main_v49 (F := Ideal) x1 j = (r : EReal))
    (hZ : ∀ j, rZ j = 0)
    (hx5 : ∀ j, ∃ r : ℝ, x5 j = (r : EReal)) :
    addf (addf (Host.divf (φ := .f32) (Host.scatterAdd (φ := .f32) Cert.KernelIdeal.scatter_S200000x2_S500000x1_S500000x2_1_0_0_1
          (broadcastInDim Cert.KernelIdeal.S200000x2 ![] Cert.KernelIdeal.Facts₀.bcast_S_S200000x2
            (constant (F := Ideal) Cert.KernelIdeal.S_ .f32 0x00000000#32))
          (rDst x1)
          (Host.gather Cert.KernelIdeal.gather_S200000x2_S500000x1_S500000x2_1_0_n_n_0_1_12
            (proj (hidden (rAgg x0 x1) x0 x2 x3 (shapeCast Cert.KernelIdeal.S1x256 x4 Cert.KernelIdeal.Facts₀.shapeCasts_S256_S1x256)) x5)
            (rSrc x1)))
        (broadcastInDim Cert.KernelIdeal.S200000x2 ![0, 1] Cert.KernelIdeal.Facts₀.bcast_S200000x1_S200000x2_0_1 (rDegCol x1)))
      (proj (hidden (rAgg x0 x1) x0 x2 x3 (shapeCast Cert.KernelIdeal.S1x256 x4 Cert.KernelIdeal.Facts₀.shapeCasts_S256_S1x256)) x6))
      (rB x7)
    = (val_main_v58 (F := Ideal) x0 x1 x2 x3 x4 x5 x6 x7 : FVec Ideal S200000x2 .f32) := by
  rw [ref_out, hH] at *
  choose dg hdg1 hdgv using hdeg
  exact layer2 (N := 200000) (E := 500000) (by decide)
    Cert.KernelIdeal.Facts₀.scatter_S200000x2_S500000x1_S500000x2_1_0_0_1_wf
    Facts₀.scatter_S200000x256_S500000x1_S500000x256_1_0_0_1_wf
    Cert.KernelIdeal.Facts₀.gather_S200000x2_S500000x1_S500000x2_1_0_n_n_0_1_12_wf
    Facts₀.gather_S200000x256_S500000x1_S500000x256_1_0_n_n_0_1_1256_wf
    _ rfl _ rfl _ rfl _ rfl _ rfl
    (rDst x1) (rSrc x1) _ x5 x6 _ _ (rB x7) rZ (rDeg x1)
    (fun i => dg (ix1 i)) (fun i => by have := hdg1 (ix1 i); intro h0; rw [h0] at this; norm_num at this)
    (fun i c => (degB2_apply x1 i c).trans (hdgv _)) (fun i k => (rDeg_apply x1 i k).trans (hdgv _))
    z2_apply hZ hHr hx5

end Cert.Sage.Bridge

end
-- ==== Proof.Finite.lean ====
import proofs.«101379_j652835029486_2_alg».proof.Defs
import proofs.«101379_j652835029486_2_alg».proof.Proof.Gen.Pre_finite_inputs
import Idealize.ShloMosaic.Lib.ReduceAll
import Idealize.ShloMosaic.Lib.ValueIdx

/-!
# Finiteness of the float inputs

The precondition says that, for each of the seven float argument arrays `x`, the
conjunction over all entries of `|x i| < +∞` is true.  At the ideal instance an entry
is an extended real, `|x|` is `max x (-x)`, and `|x| < +∞` fails exactly at the two
infinities (at `-∞`, the instance's value for a NaN as well, `-x = +∞`).  Hence every
entry is the image of a real number.

The argument is made once, for an array of an arbitrary shape (`all_real`), and then
read off the seven conjuncts of the precondition.
-/

namespace Cert.Sage.Finite

open Idealize.ShloMosaic Idealize.SL.Sem

/-- The shape of a scalar: rank 0. -/
abbrev S0 : Shape := ⟨0, ![]⟩

/-- A scalar has exactly one index. -/
instance : Subsingleton S0.Idx := ⟨fun _ _ => funext fun d => d.elim0⟩

/-- The f32 pattern with an all-ones exponent and a zero significand denotes `+∞`. -/
theorem ofBits_inf : Ideal.ofBits .f32 0x7F800000#32 = (⊤ : EReal) := by
  simp [Ideal.ofBits, Ideal.ieee]

/-- An extended real whose absolute value `max x (-x)` lies strictly below `+∞` is real. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- The element fact: the comparison `|x| < +∞`, as the ideal instance computes it
    against the bit pattern of `+∞`, being true makes `x` real. -/
theorem real_of_cmp (x : Ideal .f32)
    (h : FloatOps.cmpf (F := Ideal) .olt (FloatOps.hostAbsf x) (FloatOps.ofBits (F := Ideal) .f32 0x7F800000#32) = 1#1) :
    ∃ r : ℝ, x = (r : EReal) := by
  refine real_of_abs_lt_top x ?_
  have h' : BitVec.ofBool (decide (max x (-x) < Ideal.ofBits .f32 0x7F800000#32)) = 1#1 := h
  rw [ofBits_inf] at h'
  by_contra hn
  rw [decide_eq_false hn] at h'
  exact absurd h' (by decide)

/-- `jnp.all(|x| < +∞)` over an array of any shape: if the conjunction is true,
    every entry of `x` is real. -/
theorem all_real {s : Shape} {axes : List (Fin s.rank)} (x : FVec Ideal s .f32)
    (hb : S0.BroadcastsInDim s (![] : Fin 0 → Fin s.rank))
    (hr : s.ReducesTo axes S0) (hu : 0 < S0.numel)
    (e : Host.reduce IntOp.andi
          (cmpf .olt (Host.absf x) (broadcastInDim s ![] hb (constant (F := Ideal) S0 .f32 0x7F800000#32)))
          (constantI S0 1 1#1) hr hu ValueIdx.ix0 = 1#1)
    (i : s.Idx) : ∃ r : ℝ, x i = (r : EReal) :=
  real_of_cmp (x i) (Host.reduce_andi_all _ _ hr hu _ e i)

/-- Under the precondition every entry of each of the seven float argument arrays is
    (the image of) a real number, on every device. -/
theorem real_inputs [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : Cert.KernelIdeal.S200000x165.Idx, ∃ r : ℝ, (m ((c.tc : Thread Cert.KernelIdeal.nD Cert.KernelIdeal.τ).loc Cert.KernelIdeal.main_arg0) : Cert.KernelIdeal.S200000x165.Idx → EReal) i = (r : EReal))
    ∧ (∀ i : Cert.KernelIdeal.S165x256.Idx, ∃ r : ℝ, (m ((c.tc : Thread Cert.KernelIdeal.nD Cert.KernelIdeal.τ).loc Cert.KernelIdeal.main_arg2) : Cert.KernelIdeal.S165x256.Idx → EReal) i = (r : EReal))
    ∧ (∀ i : Cert.KernelIdeal.S165x256.Idx, ∃ r : ℝ, (m ((c.tc : Thread Cert.KernelIdeal.nD Cert.KernelIdeal.τ).loc Cert.KernelIdeal.main_arg3) : Cert.KernelIdeal.S165x256.Idx → EReal) i = (r : EReal))
    ∧ (∀ i : Cert.KernelIdeal.S256.Idx, ∃ r : ℝ, (m ((c.tc : Thread Cert.KernelIdeal.nD Cert.KernelIdeal.τ).loc Cert.KernelIdeal.main_arg4) : Cert.KernelIdeal.S256.Idx → EReal) i = (r : EReal))
    ∧ (∀ i : Cert.KernelIdeal.S256x2.Idx, ∃ r : ℝ, (m ((c.tc : Thread Cert.KernelIdeal.nD Cert.KernelIdeal.τ).loc Cert.KernelIdeal.main_arg5) : Cert.KernelIdeal.S256x2.Idx → EReal) i = (r : EReal))
    ∧ (∀ i : Cert.KernelIdeal.S256x2.Idx, ∃ r : ℝ, (m ((c.tc : Thread Cert.KernelIdeal.nD Cert.KernelIdeal.τ).loc Cert.KernelIdeal.main_arg6) : Cert.KernelIdeal.S256x2.Idx → EReal) i = (r : EReal))
    ∧ (∀ i : Cert.KernelIdeal.S2.Idx, ∃ r : ℝ, (m ((c.tc : Thread Cert.KernelIdeal.nD Cert.KernelIdeal.τ).loc Cert.KernelIdeal.main_arg7) : Cert.KernelIdeal.S2.Idx → EReal) i = (r : EReal)) := by
  have h0 := congrFun (h c) ValueIdx.ix0
  dsimp only [Cert.Pre_finite_inputs.fn, Cert.Pre_finite_inputs.fn_part1] at h0
  -- the result is a chain of six conjunctions of the seven `all`s
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  exact ⟨all_real _ _ _ _ h0, all_real _ _ _ _ h2, all_real _ _ _ _ h3, all_real _ _ _ _ h4,
    all_real _ _ _ _ h5, all_real _ _ _ _ h6, all_real _ _ _ _ h7⟩

end Cert.Sage.Finite
-- ==== Proof.HiddenDeg.lean ====
import proofs.«101379_j652835029486_2_alg».proof.Proof.Gen.ReferenceIdeal.Read
import proofs.«101379_j652835029486_2_alg».proof.Proof.LibSumSwap
import Idealize.ShloMosaic.Lib.IdealHost
import Idealize.ShloMosaic.Lib.ValueIdx

/-!
# The degree of a node in the reference

The reference counts, for every node, the edges that end in it: an accumulating scatter of
the constant one into the zero array. On the extended reals such a scatter is, at every
index, the operand's entry plus the sum of the update entries over SOME finite set of update
indices (the edges landing there); which set it is plays no part here. So the count is
`0 + ∑ e ∈ L, 1`, the image of a real number that is at least zero, and the degree, its
maximum with one, is the image of a real number that is at least one.

The same term is computed twice by the reference (once per layer); both are covered.
Also here: two small reads of the second layer's operands.
-/

noncomputable section

open scoped BigOperators

namespace Cert.Sage.Hidden

open Idealize.ShloMosaic Idealize.ShloMosaic.ValueIdx Cert.ReferenceIdeal Cert.ReferenceIdeal.Read

/-- An accumulating scatter on the extended reals, at an index: the operand's entry plus the
    sum of the update over some finite set of update indices. -/
theorem scatterAdd_apply {s si su : Shape} {φ : FTy} {w : Nat} (d : ScatterDims s si su)
    (x : FVec Ideal s φ) (idx : IVec si w) (upd : FVec Ideal su φ) (i : s.Idx) :
    ∃ L : Finset su.Idx, Host.scatterAdd d x idx upd i = x i + ∑ j ∈ L, upd j :=
  ⟨_, rfl⟩

/-- A gather at an index reads the operand at some index. -/
theorem gather_apply {s si t : Shape} {α : Type} {w : Nat} (d : GatherDims s si t) (x : s.Idx → α)
    (idx : IVec si w) (j : t.Idx) : ∃ k : s.Idx, Host.gather d x idx j = x k :=
  ⟨_, rfl⟩

/-- Zero plus a finite sum of ones, then the maximum with one: a real number at least one. -/
theorem max_count_one {ι : Type*} (L : Finset ι) (z o : EReal) (u : ι → EReal)
    (hz : z = 0) (hu : ∀ e, u e = 1) (ho : o = 1) :
    ∃ r : ℝ, 1 ≤ r ∧ max (z + ∑ e ∈ L, u e) o = (r : EReal) := by
  subst hz ho
  have hs : ∑ e ∈ L, u e = ((∑ _e ∈ L, (1 : ℝ) : ℝ) : EReal) := by
    rw [SumSwap.coe_sum]
    exact Finset.sum_congr rfl fun e _ => by rw [hu e, EReal.coe_one]
  rw [zero_add, hs]
  generalize (∑ _e ∈ L, (1 : ℝ)) = c
  rcases le_total c 1 with h | h
  · refine ⟨1, le_rfl, ?_⟩
    rw [EReal.coe_one]
    exact max_eq_right (by rw [← EReal.coe_one]; exact EReal.coe_le_coe_iff.mpr h)
  · refine ⟨c, h, ?_⟩
    exact max_eq_left (by rw [← EReal.coe_one]; exact EReal.coe_le_coe_iff.mpr h)

/-- The zero splat the first count starts from. -/
theorem val_main_v5_zero (j : S200000.Idx) : val_main_v5 (F := Ideal) j = 0 := by
  rw [val_main_v5_apply, val_main_cst_0_apply]
  exact Ideal.ofBits_zero_f32

/-- The splat of ones the first count adds up. -/
theorem val_main_v4_one (e : S500000.Idx) : val_main_v4 (F := Ideal) e = 1 := by
  rw [val_main_v4_apply, val_main_cst_apply]
  exact Ideal.ofBits_one_f32

/-- The splat of ones the first count is compared with. -/
theorem val_main_v18_one (j : S200000.Idx) : val_main_v18 (F := Ideal) j = 1 := by
  rw [val_main_v18_apply, val_main_cst_3_apply]
  exact Ideal.ofBits_one_f32

/-- The first layer's degree is a real number at least one. -/
theorem val_main_v19_real (x1 : IVec S2x500000 32) (j : S200000.Idx) :
    ∃ r : ℝ, 1 ≤ r ∧ val_main_v19 (F := Ideal) x1 j = (r : EReal) := by
  obtain ⟨L, hL⟩ := scatterAdd_apply scatter_S200000_S500000x1_S500000_n_0_0_1
    (val_main_v5 (F := Ideal)) (val_main_v6 (F := Ideal) x1) (val_main_v4 (F := Ideal)) j
  obtain ⟨r, hr, e⟩ := max_count_one L (val_main_v5 (F := Ideal) j) (val_main_v18 (F := Ideal) j)
    (val_main_v4 (F := Ideal)) (val_main_v5_zero j) val_main_v4_one (val_main_v18_one j)
  refine ⟨r, hr, ?_⟩
  rw [← e, ← hL]
  rfl

/-- The second layer computes the same degree again. -/
theorem val_main_v49_eq (x1 : IVec S2x500000 32) : val_main_v49 (F := Ideal) x1 = val_main_v19 (F := Ideal) x1 := rfl

/-- The second layer's degree is a real number at least one. -/
theorem val_main_v49_real (x1 : IVec S2x500000 32) (j : S200000.Idx) :
    ∃ r : ℝ, 1 ≤ r ∧ val_main_v49 (F := Ideal) x1 j = (r : EReal) := by
  rw [val_main_v49_eq]
  exact val_main_v19_real x1 j

/-- The array the second layer's aggregation starts from is zero. -/
theorem val_main_v45_zero (j : S200000x256.Idx) : val_main_v45 (F := Ideal) j = 0 := by
  rw [val_main_v45_apply, val_main_cst_8_apply]
  exact Ideal.ofBits_zero_f32

/-- The second layer's divisor at `(i, k)` is the degree of node `i`. -/
theorem val_main_v51_ix2 (x1 : IVec S2x500000 32) (i : Fin 200000) (k : Fin 256) :
    val_main_v51 (F := Ideal) x1 (ix2 i k) = val_main_v49 (F := Ideal) x1 (ix1 i) := by
  rw [val_main_v51_apply, val_main_v50_apply]
  refine congrArg (val_main_v49 (F := Ideal) x1) (funext fun a => ?_)
  match a with
  | ⟨0, _⟩ => rfl

/-- The first layer's divisor at `(i, f)` is the degree of node `i`. -/
theorem val_main_v21_ix2 (x1 : IVec S2x500000 32) (i : Fin 200000) (f : Fin 165) :
    val_main_v21 (F := Ideal) x1 (ix2 i f) = val_main_v19 (F := Ideal) x1 (ix1 i) := by
  rw [val_main_v21_apply, val_main_v20_apply]
  refine congrArg (val_main_v19 (F := Ideal) x1) (funext fun a => ?_)
  match a with
  | ⟨0, _⟩ => rfl

end Cert.Sage.Hidden

end
-- ==== Proof.HiddenEq.lean ====
import proofs.«101379_j652835029486_2_alg».proof.Proof.Gen.ReferenceIdeal.Read
import proofs.«101379_j652835029486_2_alg».proof.Proof.Spec
import proofs.«101379_j652835029486_2_alg».proof.Proof.LibPlainDot
import Idealize.ShloMosaic.Lib.Pipeline.Value
import Idealize.ShloMosaic.Lib.ValueIdx

/-!
# The reference's first layer is `hidden`

Entry `(n, k)` of the reference's first activation is
`max (∑ f, agg (n, f) · wl (f, k) + ∑ f, x (n, f) · wr (f, k) + b k) 0`, where `agg` is the mean
aggregation. The two matrix products are plain `[200000, 165] · [165, 256]` products; the bias
is brought to the row shape and then to the whole array by two broadcasts, which read it at
the column `k`, exactly where a reshape of the bias to `[1, 256]` read at `(0, k)` reads it.
No hypothesis on the data is needed.
-/

noncomputable section

open scoped BigOperators

namespace Cert.Sage.Hidden

open Idealize.ShloMosaic Idealize.ShloMosaic.ValueIdx Cert.ReferenceIdeal Cert.ReferenceIdeal.Read

/-- The product with the left weights, at `(n, k)`. -/
theorem val_main_v23_ix2 (x0 : FVec Ideal S200000x165 .f32) (x1 : IVec S2x500000 32) (x2 : FVec Ideal S165x256 .f32)
    (n : Fin 200000) (k : Fin 256) :
    val_main_v23 (F := Ideal) x0 x1 x2 (ix2 n k)
      = ∑ f : Fin 165, val_main_v22 (F := Ideal) x0 x1 (ix2 n f) * x2 (ix2 f k) :=
  Cert.LibPlainDot.dot_plain_apply dot_S200000x165_S165x256_S200000x256_1_0_0_1_n_n rfl none
    (val_main_v22 (F := Ideal) x0 x1) x2 n k

/-- The product with the right weights, at `(n, k)`. -/
theorem val_main_v24_ix2 (x0 : FVec Ideal S200000x165 .f32) (x3 : FVec Ideal S165x256 .f32)
    (n : Fin 200000) (k : Fin 256) :
    val_main_v24 (F := Ideal) x0 x3 (ix2 n k) = ∑ f : Fin 165, x0 (ix2 n f) * x3 (ix2 f k) :=
  Cert.LibPlainDot.dot_plain_apply dot_S200000x165_S165x256_S200000x256_1_0_0_1_n_n rfl none x0 x3 n k

/-- The bias broadcast to the whole array, at `(n, k)`, is the bias at `k`. -/
theorem val_main_v27_ix2 (x4 : FVec Ideal S256 .f32) (n : Fin 200000) (k : Fin 256) :
    val_main_v27 (F := Ideal) x4 (ix2 n k) = x4 (ix1 k) := by
  rw [val_main_v27_apply, val_main_v26_apply]
  refine congrArg x4 (funext fun a => ?_)
  match a with
  | ⟨0, _⟩ => rfl

/-- The bias reshaped to one row, at `(0, k)`, is the bias at `k`. -/
theorem shapeCast_row {α : Type} (x4 : S256.Idx → α) (hc : S256.ShapeCasts S1x256) (k : Fin 256) :
    shapeCast S1x256 x4 hc (ix2 (0 : Fin 1) k) = x4 (ix1 k) :=
  shapeCast_apply x4 hc (ix2 (0 : Fin 1) k) (ix1 k)
    (by rewrite [Shape.rowMajor_val_one, Shape.rowMajor_val_two]; show k.val = 0 * 256 + k.val; omega)

/-- The reference's first activation is `hidden` of the mean aggregation, the features, the two
    weight matrices and the bias as one row. -/
theorem val_main_v29_eq_hidden (x0 : FVec Ideal S200000x165 .f32) (x1 : IVec S2x500000 32)
    (x2 x3 : FVec Ideal S165x256 .f32) (x4 : FVec Ideal S256 .f32) (hc : S256.ShapeCasts S1x256) :
    val_main_v29 (F := Ideal) x0 x1 x2 x3 x4
      = Cert.Sage.hidden (val_main_v22 (F := Ideal) x0 x1) x0 x2 x3 (shapeCast S1x256 x4 hc) := by
  funext j
  obtain ⟨n, k, rfl⟩ : ∃ (n : Fin 200000) (k : Fin 256), j = ix2 n k := ⟨j 0, j 1, eq_ix2 j⟩
  rw [Cert.Sage.hidden_apply, val_main_v29_apply, val_main_v28_apply, val_main_v25_apply, val_main_v23_ix2,
    val_main_v24_ix2, val_main_v27_ix2, shapeCast_row, val_main_call0_v0_apply, val_main_call0_cst_apply,
    Ideal.ofBits_def, Ideal.ofBits_zero_f32]
  rfl

end Cert.Sage.Hidden

end
-- ==== Proof.HiddenReal.lean ====
import proofs.«101379_j652835029486_2_alg».proof.Proof.HiddenDeg
import proofs.«101379_j652835029486_2_alg».proof.Proof.HiddenEq
import proofs.«101379_j652835029486_2_alg».proof.Proof.LibMeanProj

/-!
# The reference's first layer is real-valued on real inputs

If every entry of the features is (the image of) a real number, so is every entry of the mean
aggregation: the aggregation's numerator is zero plus a finite sum of gathered entries of the
features, each of which is an entry of the features, and its denominator is the degree, a real
number at least one, hence nonzero. If the weights and the bias are real too, the activation
`max (∑ agg · wl + ∑ x · wr + b) 0` is real, as sums, products and maxima of reals are.
-/

noncomputable section

open scoped BigOperators

namespace Cert.Sage.Hidden

open Idealize.ShloMosaic Idealize.ShloMosaic.ValueIdx Cert.ReferenceIdeal Cert.ReferenceIdeal.Read Cert.LibMeanProj

/-- The array the first aggregation starts from is zero. -/
theorem val_main_v15_zero (j : S200000x165.Idx) : val_main_v15 (F := Ideal) j = 0 := by
  rw [val_main_v15_apply, val_main_cst_2_apply]
  exact Ideal.ofBits_zero_f32

/-- The first aggregation's numerator, a scatter-add of gathered feature rows into zero, is real
    when the features are. -/
theorem val_main_v17_real (x0 : FVec Ideal S200000x165 .f32) (x1 : IVec S2x500000 32)
    (hx0 : ∀ i, ∃ r : ℝ, x0 i = (r : EReal)) (j : S200000x165.Idx) :
    ∃ r : ℝ, val_main_v17 (F := Ideal) x0 x1 j = (r : EReal) := by
  obtain ⟨L, hL⟩ := scatterAdd_apply scatter_S200000x165_S500000x1_S500000x165_1_0_0_1
    (val_main_v15 (F := Ideal)) (val_main_v16 (F := Ideal) x1) (val_main_v14 (F := Ideal) x0 x1) j
  have h : val_main_v17 (F := Ideal) x0 x1 j
      = val_main_v15 (F := Ideal) j + ∑ e ∈ L, val_main_v14 (F := Ideal) x0 x1 e := hL
  rw [h, val_main_v15_zero]
  refine IsReal.add isReal_zero (IsReal.sum L _ fun e _ => ?_)
  obtain ⟨k, hk⟩ := gather_apply gather_S200000x165_S500000x1_S500000x165_1_0_n_n_0_1_1165 x0
    (val_main_v13 (F := Ideal) x1) e
  have h14 : val_main_v14 (F := Ideal) x0 x1 e = x0 k := hk
  rw [h14]
  exact hx0 k

/-- The mean aggregation is real when the features are. -/
theorem val_main_v22_real (x0 : FVec Ideal S200000x165 .f32) (x1 : IVec S2x500000 32)
    (hx0 : ∀ i, ∃ r : ℝ, x0 i = (r : EReal)) (j : S200000x165.Idx) :
    ∃ r : ℝ, val_main_v22 (F := Ideal) x0 x1 j = (r : EReal) := by
  obtain ⟨n, f, rfl⟩ : ∃ (n : Fin 200000) (f : Fin 165), j = ix2 n f := ⟨j 0, j 1, eq_ix2 j⟩
  obtain ⟨d, hd, ed⟩ := val_main_v19_real x1 (ix1 n)
  rw [val_main_v22_apply, Ideal.hostDivf_def, val_main_v21_ix2, ed]
  exact IsReal.div (val_main_v17_real x0 x1 hx0 (ix2 n f)) d (ne_of_gt (lt_of_lt_of_le zero_lt_one hd))

/-- The first activation is real when the features, the weights and the bias are. -/
theorem val_main_v29_real (x0 : FVec Ideal S200000x165 .f32) (x1 : IVec S2x500000 32)
    (x2 x3 : FVec Ideal S165x256 .f32) (x4 : FVec Ideal S256 .f32)
    (hx0 : ∀ i, ∃ r : ℝ, x0 i = (r : EReal)) (hx2 : ∀ i, ∃ r : ℝ, x2 i = (r : EReal))
    (hx3 : ∀ i, ∃ r : ℝ, x3 i = (r : EReal)) (hx4 : ∀ i, ∃ r : ℝ, x4 i = (r : EReal))
    (j : S200000x256.Idx) :
    ∃ r : ℝ, val_main_v29 (F := Ideal) x0 x1 x2 x3 x4 j = (r : EReal) := by
  obtain ⟨n, k, rfl⟩ : ∃ (n : Fin 200000) (k : Fin 256), j = ix2 n k := ⟨j 0, j 1, eq_ix2 j⟩
  rw [val_main_v29_apply, val_main_v28_apply, val_main_v25_apply, val_main_v23_ix2, val_main_v24_ix2,
    val_main_v27_ix2, val_main_call0_v0_apply, val_main_call0_cst_apply, Ideal.ofBits_def, Ideal.ofBits_zero_f32,
    Ideal.maximumf_def, Ideal.addf_def, Ideal.addf_def]
  exact IsReal.max
    (IsReal.add
      (IsReal.add
        (IsReal.sum _ _ fun f _ => IsReal.mul (val_main_v22_real x0 x1 hx0 (ix2 n f)) (hx2 (ix2 f k)))
        (IsReal.sum _ _ fun f _ => IsReal.mul (hx0 (ix2 n f)) (hx3 (ix2 f k))))
      (hx4 (ix1 k)))
    isReal_zero

end Cert.Sage.Hidden

end
-- ==== Proof.KernelPayload.lean ====
/-
  The body's arithmetic, read as the two dense pieces of the specification.

  For one block of 8000 nodes the body forms the products of the aggregated rows and of the nodes' own rows with
  the two first-layer weight matrices, each accumulated into the zero matrix, adds them, adds the bias row repeated
  down the 8000 rows, and takes the maximum with zero: entry `(n, k)` is
  `max (∑ f, a (n, f) · wl (f, k) + ∑ f, x (n, f) · wr (f, k) + b (0, k)) 0`, which is `hidden a x wl wr b`. Each
  stored value is that activation multiplied by one second-layer matrix, again into the zero matrix: entry `(n, c)`
  is `∑ k, h (n, k) · w (k, c)`, which is `proj h w`. The zero accumulators are the extended real `0` and drop out.
-/
import proofs.«101379_j652835029486_2_alg».proof.Proof.Gen.KernelIdeal.Skeleton
import proofs.«101379_j652835029486_2_alg».proof.Proof.Spec
import proofs.«101379_j652835029486_2_alg».proof.Proof.LibPlainMatmul
import Idealize.ShloMosaic.Lib.Pipeline.Value

noncomputable section

open scoped BigOperators

namespace Cert.Sage.Kernel

open Idealize.ShloMosaic Idealize.ShloMosaic.ValueIdx
open Cert.KernelIdeal Cert.KernelIdeal.Gen

/-- The bias row repeated down the block's rows, at `(p, q)`, is the bias at `(0, q)`. -/
theorem bias_row (v5 : Vec Ideal S1x256 .f32) (p : Fin 8000) (q : Fin 256) :
    broadcastTo S8000x256 v5 broadcasts_S1x256_S8000x256 (ix2 p q) = v5 (ix2 (0 : Fin 1) q) := by
  refine broadcastTo_apply v5 _ (ix2 p q) (ix2 (0 : Fin 1) q) fun a => ?_
  match a with
  | ⟨0, _⟩ => rfl
  | ⟨1, _⟩ => rfl

/-- The first payload is the first layer's activation of the block. -/
theorem pay1_eq (v0 v2 : Vec Ideal S8000x165 .f32) (v3 v4 : Vec Ideal S165x256 .f32) (v5 : Vec Ideal S1x256 .f32) :
    k0_pay1 v0 v2 v3 v4 v5 = Cert.Sage.hidden v0 v2 v3 v4 v5 := by
  funext j
  obtain ⟨p, q, rfl⟩ : ∃ (p : Fin 8000) (q : Fin 256), j = ix2 p q := ⟨j 0, j 1, eq_ix2 j⟩
  rw [Cert.Sage.hidden_apply]
  unfold k0_pay1
  simp only [maximumf_apply, addf_apply, broadcast_apply, shapeCast_self]
  have hl : matmul (F := Ideal) (φ₁ := .f32) (φ₂ := .f32) dot_S8000x165_S165x256_S8000x256_1_0_0_1_n_n (some .fp32) v0 v3 (constant S8000x256 .f32 0x00000000#32) (ix2 p q)
      = ∑ f : Fin 165, v0 (ix2 p f) * v3 (ix2 f q) :=
    Cert.LibPlainMatmul.matmul_plain_zero_apply dot_S8000x165_S165x256_S8000x256_1_0_0_1_n_n rfl _ (φ₁ := .f32) (φ₂ := .f32) v0 v3 p q
  have hr : matmul (F := Ideal) (φ₁ := .f32) (φ₂ := .f32) dot_S8000x165_S165x256_S8000x256_1_0_0_1_n_n (some .fp32) v2 v4 (constant S8000x256 .f32 0x00000000#32) (ix2 p q)
      = ∑ f : Fin 165, v2 (ix2 p f) * v4 (ix2 f q) :=
    Cert.LibPlainMatmul.matmul_plain_zero_apply dot_S8000x165_S165x256_S8000x256_1_0_0_1_n_n rfl _ (φ₁ := .f32) (φ₂ := .f32) v2 v4 p q
  rw [bias_row, hl, hr]
  exact congrArg (max _) Ideal.ofBits_zero_f32

/-- The value stored to the first output is the activation projected by the first second-layer matrix. -/
theorem pay2_eq (v0 v2 : Vec Ideal S8000x165 .f32) (v3 v4 : Vec Ideal S165x256 .f32) (v5 : Vec Ideal S1x256 .f32)
    (v14 : Vec Ideal S256x2 .f32) :
    k0_pay2 v0 v2 v3 v4 v5 v14 = Cert.Sage.proj (Cert.Sage.hidden v0 v2 v3 v4 v5) v14 := by
  funext j
  obtain ⟨p, q, rfl⟩ : ∃ (p : Fin 8000) (q : Fin 2), j = ix2 p q := ⟨j 0, j 1, eq_ix2 j⟩
  rw [Cert.Sage.proj_apply, ← pay1_eq]
  unfold k0_pay2
  exact Cert.LibPlainMatmul.matmul_plain_zero_apply (φ₁ := .f32) (φ₂ := .f32) dot_S8000x256_S256x2_S8000x2_1_0_0_1_n_n rfl _ _ _ p q

/-- The value stored to the second output is the activation projected by the other second-layer matrix. -/
theorem pay3_eq (v0 v2 : Vec Ideal S8000x165 .f32) (v3 v4 : Vec Ideal S165x256 .f32) (v5 : Vec Ideal S1x256 .f32)
    (v15 : Vec Ideal S256x2 .f32) :
    k0_pay3 v0 v2 v3 v4 v5 v15 = Cert.Sage.proj (Cert.Sage.hidden v0 v2 v3 v4 v5) v15 := by
  funext j
  obtain ⟨p, q, rfl⟩ : ∃ (p : Fin 8000) (q : Fin 2), j = ix2 p q := ⟨j 0, j 1, eq_ix2 j⟩
  rw [Cert.Sage.proj_apply, ← pay1_eq]
  unfold k0_pay3
  exact Cert.LibPlainMatmul.matmul_plain_zero_apply (φ₁ := .f32) (φ₂ := .f32) dot_S8000x256_S256x2_S8000x2_1_0_0_1_n_n rfl _ _ _ p q

end Cert.Sage.Kernel

end
-- ==== Proof.KernelBlocks.lean ====
/-
  From the blocks the 25 grid points write back to the two output arrays.

  Point `t` stages rows `8000 t … 8000 t + 7999` of the aggregated features and of the nodes' own features, and the
  whole of the two first-layer weight matrices, the bias row and the two second-layer matrices. The body leaves in each
  output's buffer the projected activation of that block of rows; since entry `(n, c)` of the projected activation
  reads only row `n` of the two feature arrays, this is rows `8000 t …` of the projected activation of all 200000
  nodes. Row `r` is written back by point `r / 8000`, so the 25 blocks cover each output array, which therefore ends
  holding the projected activation of the whole arrays.
-/
import proofs.«101379_j652835029486_2_alg».proof.Proof.Gen.KernelIdeal.Frame
import proofs.«101379_j652835029486_2_alg».proof.Proof.KernelPayload
import Idealize.ShloMosaic.Lib.Pipeline.Value

noncomputable section

open scoped BigOperators

namespace Cert.Sage.Kernel

open Idealize.ShloMosaic Idealize.ShloMosaic.TcCoe Idealize.SL.Sem Idealize.ShloMosaic.ValueIdx
open Idealize.ShloMosaic.Pipeline (Dat)
open Cert.KernelIdeal Cert.KernelIdeal.Gen

/-- The projected activation at row `n` of one stack of nodes and at row `n'` of another agree when those two rows of
    the feature operands agree and the other operands are the same. -/
theorem proj_hidden_rows {M M' : ℕ} (a x : (⟨2, ![M, 165]⟩ : Shape).Idx → EReal)
    (a' x' : (⟨2, ![M', 165]⟩ : Shape).Idx → EReal) (wl wr wl' wr' : (⟨2, ![165, 256]⟩ : Shape).Idx → EReal)
    (b b' : (⟨2, ![1, 256]⟩ : Shape).Idx → EReal) (w w' : (⟨2, ![256, 2]⟩ : Shape).Idx → EReal)
    (n : Fin M) (n' : Fin M') (q : Fin 2)
    (ha : ∀ f, a (ix2 n f) = a' (ix2 n' f)) (hx : ∀ f, x (ix2 n f) = x' (ix2 n' f))
    (hwl : wl = wl') (hwr : wr = wr') (hb : b = b') (hw : w = w') :
    Cert.Sage.proj (Cert.Sage.hidden a x wl wr b) w (ix2 n q)
      = Cert.Sage.proj (Cert.Sage.hidden a' x' wl' wr' b') w' (ix2 n' q) := by
  subst hwl hwr hb hw
  rw [Cert.Sage.proj_apply, Cert.Sage.proj_apply]
  refine Finset.sum_congr rfl fun k _ => ?_
  rw [Cert.Sage.hidden_apply, Cert.Sage.hidden_apply]
  simp only [ha, hx]

theorem hz : (![0, 0] : Fin 2 → Nat) = fun _ => 0 := funext fun a => by fin_cases a <;> rfl

/-- The printed index maps, decided over the 25 points: the two feature windows and the two outputs are at block
    `(t, 0)`, the five whole-array windows at block `(0, 0)`. -/
theorem idx_facts : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = t.val
    ∧ win0_7.index t (1 : Fin 2) = 0
    ∧ win0_8.index t (0 : Fin 2) = t.val
    ∧ win0_8.index t (1 : Fin 2) = 0 :=
  (by decide +kernel : ∀ t : Fin grid0.N, _)

/-! ## A window's block read off any array of its shape -/

/-- Block `t` of window 0, read off any array of the aggregated features' shape, is the array's rows `8000 t … 8000 t + 7999`. -/
theorem blk0_read (t : Fin cfg0.N) (A : S200000x165.Idx → EReal) (p : Fin 8000) (f : Fin 165) (n : Fin 200000)
    (hn : n.val = 8000 * t.val + p.val) :
    ((cfg0.win 0).blk t).view.read (Elt Ideal) A (ix2 p f) = A (ix2 n f) := by
  obtain ⟨e00, e01, -, -, -, -, -, -, -, -, -, -, -, -, -, -, -, -⟩ := idx_facts t
  rw [View.read_apply]
  show A _ = A (ix2 n f)
  refine congrArg A (funext fun a => Fin.ext ?_)
  match a with
  | ⟨0, _⟩ => show win0_0.index t (0 : Fin 2) * 8000 + 1 * p.val = n.val; omega
  | ⟨1, _⟩ => show win0_0.index t (1 : Fin 2) * 165 + 1 * f.val = f.val; omega

/-- Block `t` of window 1, read off any array of the nodes' own features' shape, is the array's rows `8000 t … 8000 t + 7999`. -/
theorem blk1_read (t : Fin cfg0.N) (A : S200000x165.Idx → EReal) (p : Fin 8000) (f : Fin 165) (n : Fin 200000)
    (hn : n.val = 8000 * t.val + p.val) :
    ((cfg0.win 1).blk t).view.read (Elt Ideal) A (ix2 p f) = A (ix2 n f) := by
  obtain ⟨-, -, e10, e11, -, -, -, -, -, -, -, -, -, -, -, -, -, -⟩ := idx_facts t
  rw [View.read_apply]
  show A _ = A (ix2 n f)
  refine congrArg A (funext fun a => Fin.ext ?_)
  match a with
  | ⟨0, _⟩ => show win0_1.index t (0 : Fin 2) * 8000 + 1 * p.val = n.val; omega
  | ⟨1, _⟩ => show win0_1.index t (1 : Fin 2) * 165 + 1 * f.val = f.val; omega

/-- Block `t` of window 2, read off any array of its shape, is the whole array. -/
theorem blk2_read (t : Fin cfg0.N) (A : S165x256.Idx → EReal) :
    (((cfg0.win 2).blk t).view.read (Elt Ideal) A : S165x256.Idx → EReal) = A := by
  obtain ⟨-, -, -, -, e20, e21, -, -, -, -, -, -, -, -, -, -, -, -⟩ := idx_facts t
  funext x
  rw [View.read_apply]
  show A _ = A x
  refine congrArg A (funext fun a => Fin.ext ?_)
  match a with
  | ⟨0, _⟩ => show win0_2.index t (0 : Fin 2) * 165 + 1 * (x 0).val = (x 0).val; omega
  | ⟨1, _⟩ => show win0_2.index t (1 : Fin 2) * 256 + 1 * (x 1).val = (x 1).val; omega

/-- Block `t` of window 3, read off any array of its shape, is the whole array. -/
theorem blk3_read (t : Fin cfg0.N) (A : S165x256.Idx → EReal) :
    (((cfg0.win 3).blk t).view.read (Elt Ideal) A : S165x256.Idx → EReal) = A := by
  obtain ⟨-, -, -, -, -, -, e30, e31, -, -, -, -, -, -, -, -, -, -⟩ := idx_facts t
  funext x
  rw [View.read_apply]
  show A _ = A x
  refine congrArg A (funext fun a => Fin.ext ?_)
  match a with
  | ⟨0, _⟩ => show win0_3.index t (0 : Fin 2) * 165 + 1 * (x 0).val = (x 0).val; omega
  | ⟨1, _⟩ => show win0_3.index t (1 : Fin 2) * 256 + 1 * (x 1).val = (x 1).val; omega

/-- Block `t` of window 4, read off any array of its shape, is the whole array. -/
theorem blk4_read (t : Fin cfg0.N) (A : S1x256.Idx → EReal) :
    (((cfg0.win 4).blk t).view.read (Elt Ideal) A : S1x256.Idx → EReal) = A := by
  obtain ⟨-, -, -, -, -, -, -, -, e40, e41, -, -, -, -, -, -, -, -⟩ := idx_facts t
  funext x
  rw [View.read_apply]
  show A _ = A x
  refine congrArg A (funext fun a => Fin.ext ?_)
  match a with
  | ⟨0, _⟩ => show win0_4.index t (0 : Fin 2) * 1 + 1 * (x 0).val = (x 0).val; omega
  | ⟨1, _⟩ => show win0_4.index t (1 : Fin 2) * 256 + 1 * (x 1).val = (x 1).val; omega

/-- Block `t` of window 5, read off any array of its shape, is the whole array. -/
theorem blk5_read (t : Fin cfg0.N) (A : S256x2.Idx → EReal) :
    (((cfg0.win 5).blk t).view.read (Elt Ideal) A : S256x2.Idx → EReal) = A := by
  obtain ⟨-, -, -, -, -, -, -, -, -, -, e50, e51, -, -, -, -, -, -⟩ := idx_facts t
  funext x
  rw [View.read_apply]
  show A _ = A x
  refine congrArg A (funext fun a => Fin.ext ?_)
  match a with
  | ⟨0, _⟩ => show win0_5.index t (0 : Fin 2) * 256 + 1 * (x 0).val = (x 0).val; omega
  | ⟨1, _⟩ => show win0_5.index t (1 : Fin 2) * 2 + 1 * (x 1).val = (x 1).val; omega

/-- Block `t` of window 6, read off any array of its shape, is the whole array. -/
theorem blk6_read (t : Fin cfg0.N) (A : S256x2.Idx → EReal) :
    (((cfg0.win 6).blk t).view.read (Elt Ideal) A : S256x2.Idx → EReal) = A := by
  obtain ⟨-, -, -, -, -, -, -, -, -, -, -, -, e60, e61, -, -, -, -⟩ := idx_facts t
  funext x
  rw [View.read_apply]
  show A _ = A x
  refine congrArg A (funext fun a => Fin.ext ?_)
  match a with
  | ⟨0, _⟩ => show win0_6.index t (0 : Fin 2) * 256 + 1 * (x 0).val = (x 0).val; omega
  | ⟨1, _⟩ => show win0_6.index t (1 : Fin 2) * 2 + 1 * (x 1).val = (x 1).val; omega

variable (m : (ℓ : Loc nD τ sig) → Buf (Elt Ideal) ℓ)

/-! ## The input blocks, read off the arrays the region finds -/

/-- Window 0's block at point `t` is rows `8000 t … 8000 t + 7999` of the aggregated features. -/
theorem iblk0_apply (c : Dev nD) (t : Fin cfg0.N) (p : Fin 8000) (f : Fin 165) (n : Fin 200000)
    (hn : n.val = 8000 * t.val + p.val) :
    (iblk m c 0 t : Vec Ideal S8000x165 .f32) (ix2 p f) = (V m c main_v22 : S200000x165.Idx → EReal) (ix2 n f) :=
  blk0_read t (V m c main_v22) p f n hn

/-- Window 1's block at point `t` is rows `8000 t … 8000 t + 7999` of the nodes' own features. -/
theorem iblk1_apply (c : Dev nD) (t : Fin cfg0.N) (p : Fin 8000) (f : Fin 165) (n : Fin 200000)
    (hn : n.val = 8000 * t.val + p.val) :
    (iblk m c 1 t : Vec Ideal S8000x165 .f32) (ix2 p f) = (V m c main_arg0 : S200000x165.Idx → EReal) (ix2 n f) :=
  blk1_read t (V m c main_arg0) p f n hn

/-- Window 2 is the whole of its array at every point. -/
theorem iblk2_eq (c : Dev nD) (t : Fin cfg0.N) :
    (iblk m c 2 t : Vec Ideal S165x256 .f32) = (V m c main_arg2 : S165x256.Idx → EReal) :=
  blk2_read t (V m c main_arg2)

/-- Window 3 is the whole of its array at every point. -/
theorem iblk3_eq (c : Dev nD) (t : Fin cfg0.N) :
    (iblk m c 3 t : Vec Ideal S165x256 .f32) = (V m c main_arg3 : S165x256.Idx → EReal) :=
  blk3_read t (V m c main_arg3)

/-- Window 4 is the whole of its array at every point. -/
theorem iblk4_eq (c : Dev nD) (t : Fin cfg0.N) :
    (iblk m c 4 t : Vec Ideal S1x256 .f32) = (V m c main_v23 : S1x256.Idx → EReal) :=
  blk4_read t (V m c main_v23)

/-- Window 5 is the whole of its array at every point. -/
theorem iblk5_eq (c : Dev nD) (t : Fin cfg0.N) :
    (iblk m c 5 t : Vec Ideal S256x2 .f32) = (V m c main_arg5 : S256x2.Idx → EReal) :=
  blk5_read t (V m c main_arg5)

/-- Window 6 is the whole of its array at every point. -/
theorem iblk6_eq (c : Dev nD) (t : Fin cfg0.N) :
    (iblk m c 6 t : Vec Ideal S256x2 .f32) = (V m c main_arg6 : S256x2.Idx → EReal) :=
  blk6_read t (V m c main_arg6)

/-! ## The first output (window 7) -/

/-- What the body leaves in the first output's buffer is the projected activation of the input blocks. -/
theorem out7_eq (x0 x1 : Vec Ideal S8000x165 .f32) (x2 x3 : Vec Ideal S165x256 .f32) (x4 : Vec Ideal S1x256 .f32)
    (x5 x6 : Vec Ideal S256x2 .f32) :
    out0_7 x0 x1 x2 x3 x4 x5 x6 = Cert.Sage.proj (Cert.Sage.hidden x0 x1 x2 x3 x4) x5 := by
  unfold out0_7
  rw [View.canon_unit_zero hz]
  simp only [View.ld_unit_zero (S := S8000x165) hz, View.ld_unit_zero (S := S165x256) hz,
    View.ld_unit_zero (S := S1x256) hz, View.ld_unit_zero (S := S256x2) hz]
  exact pay2_eq x0 x1 x2 x3 x4 x5

/-- The projected activation of a block of rows is block `t` of the projected activation of the whole arrays, for any
    arrays and any blocks that are those arrays' rows `8000 t …` (the feature operands) or the arrays themselves (the
    others): row `p` of the block is row `8000 t + p` of the array, and a row of the projected activation reads that row
    of the feature operands only. -/
theorem block7 (t : Fin cfg0.N) (A0 A1 : S200000x165.Idx → EReal) (A2 A3 : S165x256.Idx → EReal)
    (A4 : S1x256.Idx → EReal) (A5 : S256x2.Idx → EReal)
    (x0 x1 : S8000x165.Idx → EReal) (x2 x3 : S165x256.Idx → EReal) (x4 : S1x256.Idx → EReal) (x5 : S256x2.Idx → EReal)
    (h0 : ∀ (p : Fin 8000) (f : Fin 165) (n : Fin 200000), n.val = 8000 * t.val + p.val → x0 (ix2 p f) = A0 (ix2 n f))
    (h1 : ∀ (p : Fin 8000) (f : Fin 165) (n : Fin 200000), n.val = 8000 * t.val + p.val → x1 (ix2 p f) = A1 (ix2 n f))
    (h2 : x2 = A2) (h3 : x3 = A3) (h4 : x4 = A4) (h5 : x5 = A5) :
    (Cert.Sage.proj (M := 8000) (Cert.Sage.hidden (M := 8000) x0 x1 x2 x3 x4) x5 : S8000x2.Idx → EReal)
      = ((cfg0.win 7).blk t).view.read (Elt Ideal)
          (Cert.Sage.proj (M := 200000) (Cert.Sage.hidden (M := 200000) A0 A1 A2 A3 A4) A5) := by
  have hN : cfg0.N = 25 := N_0
  have ht : t.val < 25 := by rw [← hN]; exact t.isLt
  obtain ⟨-, -, -, -, -, -, -, -, -, -, -, -, -, -, e70, e71, -, -⟩ := idx_facts t
  funext j
  obtain ⟨p, q, rfl⟩ : ∃ (p : Fin 8000) (q : Fin 2), j = ix2 p q := ⟨j 0, j 1, eq_ix2 j⟩
  have hp : p.val < 8000 := p.isLt
  rw [View.read_apply]
  show _ = Cert.Sage.proj (M := 200000) (Cert.Sage.hidden (M := 200000) A0 A1 A2 A3 A4) A5 (((cfg0.win 7).blk t).view.emb (ix2 p q))
  have he : ((cfg0.win 7).blk t).view.emb (ix2 p q) = ix2 (⟨8000 * t.val + p.val, by omega⟩ : Fin 200000) q := by
    funext a; apply Fin.ext
    match a with
    | ⟨0, _⟩ => show win0_7.index t (0 : Fin 2) * 8000 + 1 * p.val = 8000 * t.val + p.val; omega
    | ⟨1, _⟩ => show win0_7.index t (1 : Fin 2) * 2 + 1 * q.val = q.val; omega
  rw [he]
  exact proj_hidden_rows (M := 8000) (M' := 200000) x0 x1 A0 A1 x2 x3 A2 A3 x4 A4 x5 A5 p ⟨8000 * t.val + p.val, by omega⟩ q
    (fun f => h0 p f _ rfl) (fun f => h1 p f _ rfl) h2 h3 h4 h5

/-- The first output array as one function of the arrays the region finds: the activation of all 200000 nodes,
    projected. -/
abbrev projL (c : Dev nD) : S200000x2.Idx → EReal :=
  Cert.Sage.proj (M := 200000) (Cert.Sage.hidden (M := 200000) (V m c main_v22) (V m c main_arg0) (V m c main_arg2) (V m c main_arg3)
    (V m c main_v23)) (V m c main_arg5)

/-- What point `t` writes back to the first output is block `t` of that function. -/
theorem flushed7_eq (c : Dev nD) (t : Fin cfg0.N) :
    (dats (F := Ideal) m 0 c).flushed 7 t = ((cfg0.win 7).blk t).view.read (Elt Ideal) (projL m c) := by
  show (cfg0.win 7).cut (grid0.coords t) ((dats (F := Ideal) m 0 c).after 7 t) = _
  rw [after0_7, out7_eq (iblk m c 0 t) (iblk m c 1 t) (iblk m c 2 t) (iblk m c 3 t) (iblk m c 4 t) (iblk m c 5 t) (iblk m c 6 t)]
  exact block7 t (V m c main_v22) (V m c main_arg0) (V m c main_arg2) (V m c main_arg3) (V m c main_v23) (V m c main_arg5)
    (iblk m c 0 t) (iblk m c 1 t) (iblk m c 2 t) (iblk m c 3 t) (iblk m c 4 t) (iblk m c 5 t)
    (fun p f n hn => iblk0_apply m c t p f n hn) (fun p f n hn => iblk1_apply m c t p f n hn)
    (iblk2_eq m c t) (iblk3_eq m c t) (iblk4_eq m c t) (iblk5_eq m c t)

/-- An index of the first output is in point `t`'s block iff each coordinate is in the block's range on its axis. -/
theorem mem_blk7 (t : Fin cfg0.N) (i : S200000x2.Idx) :
    i ∈ ((cfg0.win 7).blk t).view.set ↔ ∀ a : Fin 2, win0_7.index t a * S8000x2.size a ≤ (i a).val
      ∧ (i a).val < win0_7.index t a * S8000x2.size a + S8000x2.size a := by
  show i ∈ ((View.whole main_v24_0).slice (win0_7.rect t)).set ↔ _
  rw [View.set_slice_whole, Rect.mem_set_unit]
  exact Iff.rfl

/-- Row `r` of the first output is written back by point `r / 8000`. -/
theorem cover7 (i : S200000x2.Idx) :
    ∃ t : Fin cfg0.N, (cfg0.win 7).flush t = true ∧ i ∈ ((cfg0.win 7).blk t).view.set := by
  have hN : cfg0.N = 25 := N_0
  have hi0 : (i 0).val < 200000 := (i 0).isLt
  have hi1 : (i 1).val < 2 := (i 1).isLt
  obtain ⟨t, ht⟩ : ∃ t : Fin cfg0.N, t.val = (i 0).val / 8000 := ⟨⟨(i 0).val / 8000, by rw [hN]; omega⟩, rfl⟩
  obtain ⟨-, -, -, -, -, -, -, -, -, -, -, -, -, -, e70, e71, -, -⟩ := idx_facts t
  refine ⟨t, flush0_7 t, ?_⟩
  rw [mem_blk7]
  intro a
  match a with
  | ⟨0, _⟩ =>
    show win0_7.index t (0 : Fin 2) * 8000 ≤ (i 0).val ∧ (i 0).val < win0_7.index t (0 : Fin 2) * 8000 + 8000
    omega
  | ⟨1, _⟩ =>
    show win0_7.index t (1 : Fin 2) * 2 ≤ (i 1).val ∧ (i 1).val < win0_7.index t (1 : Fin 2) * 2 + 2
    omega

/-- THE FIRST OUTPUT ARRAY after the run: the projected activation of all 200000 nodes. -/
theorem arr7 (c : Dev nD) :
    ((dats (F := Ideal) m 0 c).arrAt 7 cfg0.N : S200000x2.Idx → EReal)
      = Cert.Sage.proj (M := 200000) (Cert.Sage.hidden (M := 200000) (V m c main_v22) (V m c main_arg0) (V m c main_arg2) (V m c main_arg3)
          (V m c main_v23)) (V m c main_arg5) :=
  (dats (F := Ideal) m 0 c).arrAt_eq_of_cover 7 (projL m c) (fun t _ => flushed7_eq m c t) cover7

/-! ## The second output (window 8) -/

/-- What the body leaves in the second output's buffer is the projected activation of the input blocks. -/
theorem out8_eq (x0 x1 : Vec Ideal S8000x165 .f32) (x2 x3 : Vec Ideal S165x256 .f32) (x4 : Vec Ideal S1x256 .f32)
    (x5 x6 : Vec Ideal S256x2 .f32) :
    out0_8 x0 x1 x2 x3 x4 x5 x6 = Cert.Sage.proj (Cert.Sage.hidden x0 x1 x2 x3 x4) x6 := by
  unfold out0_8
  rw [View.canon_unit_zero hz]
  simp only [View.ld_unit_zero (S := S8000x165) hz, View.ld_unit_zero (S := S165x256) hz,
    View.ld_unit_zero (S := S1x256) hz, View.ld_unit_zero (S := S256x2) hz]
  exact pay3_eq x0 x1 x2 x3 x4 x6

/-- The projected activation of a block of rows is block `t` of the projected activation of the whole arrays, for any
    arrays and any blocks that are those arrays' rows `8000 t …` (the feature operands) or the arrays themselves (the
    others): row `p` of the block is row `8000 t + p` of the array, and a row of the projected activation reads that row
    of the feature operands only. -/
theorem block8 (t : Fin cfg0.N) (A0 A1 : S200000x165.Idx → EReal) (A2 A3 : S165x256.Idx → EReal)
    (A4 : S1x256.Idx → EReal) (A5 : S256x2.Idx → EReal)
    (x0 x1 : S8000x165.Idx → EReal) (x2 x3 : S165x256.Idx → EReal) (x4 : S1x256.Idx → EReal) (x5 : S256x2.Idx → EReal)
    (h0 : ∀ (p : Fin 8000) (f : Fin 165) (n : Fin 200000), n.val = 8000 * t.val + p.val → x0 (ix2 p f) = A0 (ix2 n f))
    (h1 : ∀ (p : Fin 8000) (f : Fin 165) (n : Fin 200000), n.val = 8000 * t.val + p.val → x1 (ix2 p f) = A1 (ix2 n f))
    (h2 : x2 = A2) (h3 : x3 = A3) (h4 : x4 = A4) (h5 : x5 = A5) :
    (Cert.Sage.proj (M := 8000) (Cert.Sage.hidden (M := 8000) x0 x1 x2 x3 x4) x5 : S8000x2.Idx → EReal)
      = ((cfg0.win 8).blk t).view.read (Elt Ideal)
          (Cert.Sage.proj (M := 200000) (Cert.Sage.hidden (M := 200000) A0 A1 A2 A3 A4) A5) := by
  have hN : cfg0.N = 25 := N_0
  have ht : t.val < 25 := by rw [← hN]; exact t.isLt
  obtain ⟨-, -, -, -, -, -, -, -, -, -, -, -, -, -, -, -, e80, e81⟩ := idx_facts t
  funext j
  obtain ⟨p, q, rfl⟩ : ∃ (p : Fin 8000) (q : Fin 2), j = ix2 p q := ⟨j 0, j 1, eq_ix2 j⟩
  have hp : p.val < 8000 := p.isLt
  rw [View.read_apply]
  show _ = Cert.Sage.proj (M := 200000) (Cert.Sage.hidden (M := 200000) A0 A1 A2 A3 A4) A5 (((cfg0.win 8).blk t).view.emb (ix2 p q))
  have he : ((cfg0.win 8).blk t).view.emb (ix2 p q) = ix2 (⟨8000 * t.val + p.val, by omega⟩ : Fin 200000) q := by
    funext a; apply Fin.ext
    match a with
    | ⟨0, _⟩ => show win0_8.index t (0 : Fin 2) * 8000 + 1 * p.val = 8000 * t.val + p.val; omega
    | ⟨1, _⟩ => show win0_8.index t (1 : Fin 2) * 2 + 1 * q.val = q.val; omega
  rw [he]
  exact proj_hidden_rows (M := 8000) (M' := 200000) x0 x1 A0 A1 x2 x3 A2 A3 x4 A4 x5 A5 p ⟨8000 * t.val + p.val, by omega⟩ q
    (fun f => h0 p f _ rfl) (fun f => h1 p f _ rfl) h2 h3 h4 h5

/-- The second output array as one function of the arrays the region finds: the activation of all 200000 nodes,
    projected. -/
abbrev projR (c : Dev nD) : S200000x2.Idx → EReal :=
  Cert.Sage.proj (M := 200000) (Cert.Sage.hidden (M := 200000) (V m c main_v22) (V m c main_arg0) (V m c main_arg2) (V m c main_arg3)
    (V m c main_v23)) (V m c main_arg6)

/-- What point `t` writes back to the second output is block `t` of that function. -/
theorem flushed8_eq (c : Dev nD) (t : Fin cfg0.N) :
    (dats (F := Ideal) m 0 c).flushed 8 t = ((cfg0.win 8).blk t).view.read (Elt Ideal) (projR m c) := by
  show (cfg0.win 8).cut (grid0.coords t) ((dats (F := Ideal) m 0 c).after 8 t) = _
  rw [after0_8, out8_eq (iblk m c 0 t) (iblk m c 1 t) (iblk m c 2 t) (iblk m c 3 t) (iblk m c 4 t) (iblk m c 5 t) (iblk m c 6 t)]
  exact block8 t (V m c main_v22) (V m c main_arg0) (V m c main_arg2) (V m c main_arg3) (V m c main_v23) (V m c main_arg6)
    (iblk m c 0 t) (iblk m c 1 t) (iblk m c 2 t) (iblk m c 3 t) (iblk m c 4 t) (iblk m c 6 t)
    (fun p f n hn => iblk0_apply m c t p f n hn) (fun p f n hn => iblk1_apply m c t p f n hn)
    (iblk2_eq m c t) (iblk3_eq m c t) (iblk4_eq m c t) (iblk6_eq m c t)

/-- An index of the second output is in point `t`'s block iff each coordinate is in the block's range on its axis. -/
theorem mem_blk8 (t : Fin cfg0.N) (i : S200000x2.Idx) :
    i ∈ ((cfg0.win 8).blk t).view.set ↔ ∀ a : Fin 2, win0_8.index t a * S8000x2.size a ≤ (i a).val
      ∧ (i a).val < win0_8.index t a * S8000x2.size a + S8000x2.size a := by
  show i ∈ ((View.whole main_v24_1).slice (win0_8.rect t)).set ↔ _
  rw [View.set_slice_whole, Rect.mem_set_unit]
  exact Iff.rfl

/-- Row `r` of the second output is written back by point `r / 8000`. -/
theorem cover8 (i : S200000x2.Idx) :
    ∃ t : Fin cfg0.N, (cfg0.win 8).flush t = true ∧ i ∈ ((cfg0.win 8).blk t).view.set := by
  have hN : cfg0.N = 25 := N_0
  have hi0 : (i 0).val < 200000 := (i 0).isLt
  have hi1 : (i 1).val < 2 := (i 1).isLt
  obtain ⟨t, ht⟩ : ∃ t : Fin cfg0.N, t.val = (i 0).val / 8000 := ⟨⟨(i 0).val / 8000, by rw [hN]; omega⟩, rfl⟩
  obtain ⟨-, -, -, -, -, -, -, -, -, -, -, -, -, -, -, -, e80, e81⟩ := idx_facts t
  refine ⟨t, flush0_8 t, ?_⟩
  rw [mem_blk8]
  intro a
  match a with
  | ⟨0, _⟩ =>
    show win0_8.index t (0 : Fin 2) * 8000 ≤ (i 0).val ∧ (i 0).val < win0_8.index t (0 : Fin 2) * 8000 + 8000
    omega
  | ⟨1, _⟩ =>
    show win0_8.index t (1 : Fin 2) * 2 ≤ (i 1).val ∧ (i 1).val < win0_8.index t (1 : Fin 2) * 2 + 2
    omega

/-- THE SECOND OUTPUT ARRAY after the run: the projected activation of all 200000 nodes. -/
theorem arr8 (c : Dev nD) :
    ((dats (F := Ideal) m 0 c).arrAt 8 cfg0.N : S200000x2.Idx → EReal)
      = Cert.Sage.proj (M := 200000) (Cert.Sage.hidden (M := 200000) (V m c main_v22) (V m c main_arg0) (V m c main_arg2) (V m c main_arg3)
          (V m c main_v23)) (V m c main_arg6) :=
  (dats (F := Ideal) m 0 c).arrAt_eq_of_cover 8 (projR m c) (fun t _ => flushed8_eq m c t) cover8

end Cert.Sage.Kernel

end
-- ==== Proof.KernelHost.lean ====
/-
  The host operations before the region, as explicit terms of the arguments.

  The second argument lists 500000 edges as two rows of node numbers: row 0 the node an edge starts from, row 1 the
  node it ends at. Before the region the host computes the mean of the features over each node's incoming edges: the
  rows of the features at the edges' start nodes (a start number below zero counts from the end) are added up at the
  edges' end nodes, and each row is divided by the number of edges ending at its node, taken to be at least one. It also
  lays the first layer's bias out as a one-row matrix. The definitions below name those terms; the operations that
  move rows along the edges are named and never opened.
-/
import proofs.«101379_j652835029486_2_alg».proof.Proof.Gen.KernelIdeal.Frame
import Idealize.ShloMosaic.PureOps.Ideal.Laws
import Idealize.ShloMosaic.Lib.Pipeline.Value
import Idealize.ShloMosaic.Lib.Tactic

noncomputable section

namespace Cert.Sage.Kernel

open Idealize.ShloMosaic Idealize.ShloMosaic.TcCoe Idealize.SL.Sem Idealize.ShloMosaic.Tactic
open Cert.KernelIdeal Cert.KernelIdeal.Gen

/-- The node each edge starts from: row 0 of the edge list, as a vector. -/
def srcCol (ei : IVec S2x500000 32) : IVec S500000 32 :=
  shapeCast S500000 (extractStridedSlice S1x500000 ![0, 0] ei slices_S2x500000_S1x500000_0_0) shapeCasts_S1x500000_S500000

/-- The node each edge ends at: row 1 of the edge list, as a vector. -/
def dstCol (ei : IVec S2x500000 32) : IVec S500000 32 :=
  shapeCast S500000 (extractStridedSlice S1x500000 ![1, 0] ei slices_S2x500000_S1x500000_1_0) shapeCasts_S1x500000_S500000

/-- The start nodes as row numbers to read: a number below zero has 200000 added; as a one-column matrix. -/
def srcRows (ei : IVec S2x500000 32) : IVec S500000x1 32 :=
  broadcastInDim S500000x1 ![0] bcast_S500000_S500000x1_0
    (select (cmpi .slt (srcCol ei) (broadcastInDim S500000 ![] bcast_S_S500000 (constantI S_ 32 0#32)))
      (addi (srcCol ei) (broadcastInDim S500000 ![] bcast_S_S500000 (constantI S_ 32 200000#32)))
      (srcCol ei))

/-- The end nodes as a one-column matrix of row numbers to add at. -/
def dstRows (ei : IVec S2x500000 32) : IVec S500000x1 32 :=
  broadcastInDim S500000x1 ![0] bcast_S500000_S500000x1_0 (dstCol ei)

/-- The number of edges ending at each node, at least one, as a one-column matrix. -/
def degCol (ei : IVec S2x500000 32) : FVec Ideal S200000x1 .f32 :=
  broadcastInDim S200000x1 ![0] bcast_S200000_S200000x1_0
    (maximumf
      (Host.scatterAdd (F := Ideal) scatter_S200000_S500000x1_S500000_n_0_0_1
        (broadcastInDim S200000 ![] bcast_S_S200000 (constant (F := Ideal) S_ .f32 0x00000000#32))
        (dstRows ei)
        (broadcastInDim S500000 ![] bcast_S_S500000 (constant (F := Ideal) S_ .f32 0x3F800000#32)))
      (broadcastInDim S200000 ![] bcast_S_S200000 (constant (F := Ideal) S_ .f32 0x3F800000#32)))

/-- The mean of the 165 features over each node's incoming edges. -/
def agg1 (x : FVec Ideal S200000x165 .f32) (ei : IVec S2x500000 32) : FVec Ideal S200000x165 .f32 :=
  Host.divf (F := Ideal)
    (Host.scatterAdd (F := Ideal) scatter_S200000x165_S500000x1_S500000x165_1_0_0_1
      (broadcastInDim S200000x165 ![] bcast_S_S200000x165 (constant (F := Ideal) S_ .f32 0x00000000#32))
      (dstRows ei)
      (Host.gather gather_S200000x165_S500000x1_S500000x165_1_0_n_n_0_1_1165 x (srcRows ei)))
    (broadcastInDim S200000x165 ![0, 1] bcast_S200000x1_S200000x165_0_1 (degCol ei))

/-- The first layer's bias as a one-row matrix. -/
def biasRow (b : FVec Ideal S256 .f32) : FVec Ideal S1x256 .f32 :=
  shapeCast S1x256 b shapeCasts_S256_S1x256

variable (m : (ℓ : Loc nD τ sig) → Buf (Elt Ideal) ℓ)

/-- The region finds the edges' start nodes in `main_v1`. -/
theorem V_main_v1 (c : Dev nD) :
    (V m c main_v1 : S500000.Idx → BitVec 32) = srcCol (m ((c.tc : Thread nD τ).loc main_arg1)) := by
  show StableHlo.after hostOps0 (fun b => m (c, b)) (Proc.devRef .tc main_v1) = _
  after_results
  rfl

/-- The region finds the edges' end nodes in `main_v3`. -/
theorem V_main_v3 (c : Dev nD) :
    (V m c main_v3 : S500000.Idx → BitVec 32) = dstCol (m ((c.tc : Thread nD τ).loc main_arg1)) := by
  show StableHlo.after hostOps0 (fun b => m (c, b)) (Proc.devRef .tc main_v3) = _
  after_results
  rfl

/-- The region finds the clipped numbers of incoming edges in `main_v10`. -/
theorem V_main_v10 (c : Dev nD) :
    (V m c main_v10 : S200000x1.Idx → EReal) = degCol (m ((c.tc : Thread nD τ).loc main_arg1)) := by
  show StableHlo.after hostOps0 (fun b => m (c, b)) (Proc.devRef .tc main_v10) = _
  after_results
  rfl

set_option maxHeartbeats 2000000 in
/-- The region finds the mean-aggregated features in `main_v22`. -/
theorem V_main_v22 (c : Dev nD) :
    (V m c main_v22 : S200000x165.Idx → EReal)
      = agg1 (m ((c.tc : Thread nD τ).loc main_arg0)) (m ((c.tc : Thread nD τ).loc main_arg1)) := by
  show StableHlo.after hostOps0 (fun b => m (c, b)) (Proc.devRef .tc main_v22) = _
  after_results
  rfl

/-- The region finds the bias as a one-row matrix in `main_v23`. -/
theorem V_main_v23 (c : Dev nD) :
    (V m c main_v23 : S1x256.Idx → EReal) = biasRow (m ((c.tc : Thread nD τ).loc main_arg4)) := by
  show StableHlo.after hostOps0 (fun b => m (c, b)) (Proc.devRef .tc main_v23) = _
  after_results
  rfl

end Cert.Sage.Kernel

end
-- ==== Proof.KernelValue.lean ====
/-
  The kernel program's result as one term of its eight arguments.

  After the region the host moves the first output's rows along the edges exactly as it moved the features before the
  region: the rows at the edges' start nodes are added up at the edges' end nodes and divided by the clipped number of
  incoming edges. It then adds the second output and the second layer's bias, repeated down the rows. With the two
  outputs being the projected activation of all 200000 nodes, and the activation's first operand the mean-aggregated
  features, this is the whole two-layer network. The operations that move rows along the edges are carried as named
  terms and never opened.
-/
import proofs.«101379_j652835029486_2_alg».proof.Proof.Gen.KernelIdeal.Frame
import proofs.«101379_j652835029486_2_alg».proof.Proof.KernelBlocks
import proofs.«101379_j652835029486_2_alg».proof.Proof.KernelHost
import Idealize.ShloMosaic.Lib.Pipeline.Value
import Idealize.ShloMosaic.Lib.Tactic

noncomputable section

namespace Cert.Sage.Kernel

open Idealize.ShloMosaic Idealize.ShloMosaic.TcCoe Idealize.SL.Sem Idealize.ShloMosaic.Tactic
open Idealize.ShloMosaic.Pipeline (Dat)
open Cert.KernelIdeal Cert.KernelIdeal.Gen

/-- The host operations after the region, of the edge list `ei`, the second layer's bias `b2` and the region's two
    outputs: the mean of `y2l` over each node's incoming edges, plus `y2r`, plus the bias repeated down the rows. -/
def kernelOut (ei : IVec S2x500000 32) (b2 : FVec Ideal S2 .f32) (y2l y2r : FVec Ideal S200000x2 .f32) :
    FVec Ideal S200000x2 .f32 :=
  addf (F := Ideal)
    (addf (F := Ideal)
      (Host.divf (F := Ideal)
        (Host.scatterAdd (F := Ideal) scatter_S200000x2_S500000x1_S500000x2_1_0_0_1
          (broadcastInDim S200000x2 ![] bcast_S_S200000x2 (constant (F := Ideal) S_ .f32 0x00000000#32))
          (dstRows ei)
          (Host.gather gather_S200000x2_S500000x1_S500000x2_1_0_n_n_0_1_12 y2l (srcRows ei)))
        (broadcastInDim S200000x2 ![0, 1] bcast_S200000x1_S200000x2_0_1 (degCol ei)))
      y2r)
    (broadcastInDim S200000x2 ![0, 1] bcast_S1x2_S200000x2_0_1 (broadcastInDim S1x2 ![1] bcast_S2_S1x2_1 b2))

variable (m : (ℓ : Loc nD τ sig) → Buf (Elt Ideal) ℓ) (ρ : Dev nD → PrngReg)

/-- The first output array through the host terms: the activation's first operand is the mean-aggregated features,
    its bias the bias laid out as a row. -/
theorem projL_eq (c : Dev nD) : projL m c = (Cert.Sage.proj (M := 200000) (Cert.Sage.hidden (M := 200000) (agg1 (m ((c.tc : Thread nD τ).loc main_arg0)) (m ((c.tc : Thread nD τ).loc main_arg1))) (m ((c.tc : Thread nD τ).loc main_arg0)) (m ((c.tc : Thread nD τ).loc main_arg2)) (m ((c.tc : Thread nD τ).loc main_arg3)) (biasRow (m ((c.tc : Thread nD τ).loc main_arg4)))) (m ((c.tc : Thread nD τ).loc main_arg5))) := by
  show Cert.Sage.proj (M := 200000) (Cert.Sage.hidden (M := 200000) (V m c main_v22) (V m c main_arg0) (V m c main_arg2)
    (V m c main_arg3) (V m c main_v23)) (V m c main_arg5) = _
  rw [V_main_v22 m c, V_main_v23 m c, V_main_arg0 m c, V_main_arg2 m c, V_main_arg3 m c, V_main_arg5 m c]

/-- The second output array through the host terms. -/
theorem projR_eq (c : Dev nD) : projR m c = (Cert.Sage.proj (M := 200000) (Cert.Sage.hidden (M := 200000) (agg1 (m ((c.tc : Thread nD τ).loc main_arg0)) (m ((c.tc : Thread nD τ).loc main_arg1))) (m ((c.tc : Thread nD τ).loc main_arg0)) (m ((c.tc : Thread nD τ).loc main_arg2)) (m ((c.tc : Thread nD τ).loc main_arg3)) (biasRow (m ((c.tc : Thread nD τ).loc main_arg4)))) (m ((c.tc : Thread nD τ).loc main_arg6))) := by
  show Cert.Sage.proj (M := 200000) (Cert.Sage.hidden (M := 200000) (V m c main_v22) (V m c main_arg0) (V m c main_arg2)
    (V m c main_arg3) (V m c main_v23)) (V m c main_arg6) = _
  rw [V_main_v22 m c, V_main_v23 m c, V_main_arg0 m c, V_main_arg2 m c, V_main_arg3 m c, V_main_arg6 m c]

set_option maxHeartbeats 2000000 in
/-- What the host operations after the region leave in `main_v40`: `kernelOut` of the edge list, the bias and the two
    output arrays. The tail reads the two pipeline arrays as the region left them and three buffers of the host prefix
    (the edges' start nodes, their end nodes, the clipped edge counts) as the region found them. -/
theorem tail_main_v40 (c : Dev nD) :
    (Pipeline.afterTail₀ cfgs (dats (F := Ideal) m) 0 (V0 m) [hostOps1] c main_v40 : S200000x2.Idx → EReal)
      = kernelOut (m ((c.tc : Thread nD τ).loc main_arg1)) (m ((c.tc : Thread nD τ).loc main_arg7)) (projL m c) (projR m c) := by
  have h7 : Pipeline.withArrays (cfgs 0).spec c (V0 m c) (fun w => (dats (F := Ideal) m 0 c).arrAt w (cfgs 0).N) (Proc.devRef .tc main_v24_0) = projL m c :=
    (Pipeline.withArrays_arr spec0 launch0.win.arr_inj c _ _ 7).trans (arr7 m c)
  have h8 : Pipeline.withArrays (cfgs 0).spec c (V0 m c) (fun w => (dats (F := Ideal) m 0 c).arrAt w (cfgs 0).N) (Proc.devRef .tc main_v24_1) = projR m c :=
    (Pipeline.withArrays_arr spec0 launch0.win.arr_inj c _ _ 8).trans (arr8 m c)
  have h1 : Pipeline.withArrays (cfgs 0).spec c (V0 m c) (fun w => (dats (F := Ideal) m 0 c).arrAt w (cfgs 0).N) (Proc.devRef .tc main_v1) = srcCol (m ((c.tc : Thread nD τ).loc main_arg1)) :=
    (Pipeline.withArrays_of_ne _ c (V0 m c) _ main_v1 (by exact (by decide : ∀ w, Pipeline.arrRef spec0 w ≠ main_v1))).trans (V_main_v1 m c)
  have h3 : Pipeline.withArrays (cfgs 0).spec c (V0 m c) (fun w => (dats (F := Ideal) m 0 c).arrAt w (cfgs 0).N) (Proc.devRef .tc main_v3) = dstCol (m ((c.tc : Thread nD τ).loc main_arg1)) :=
    (Pipeline.withArrays_of_ne _ c (V0 m c) _ main_v3 (by exact (by decide : ∀ w, Pipeline.arrRef spec0 w ≠ main_v3))).trans (V_main_v3 m c)
  have h10 : Pipeline.withArrays (cfgs 0).spec c (V0 m c) (fun w => (dats (F := Ideal) m 0 c).arrAt w (cfgs 0).N) (Proc.devRef .tc main_v10) = degCol (m ((c.tc : Thread nD τ).loc main_arg1)) :=
    (Pipeline.withArrays_of_ne _ c (V0 m c) _ main_v10 (by exact (by decide : ∀ w, Pipeline.arrRef spec0 w ≠ main_v10))).trans (V_main_v10 m c)
  have hb : Pipeline.withArrays (cfgs 0).spec c (V0 m c) (fun w => (dats (F := Ideal) m 0 c).arrAt w (cfgs 0).N) (Proc.devRef .tc main_arg7) = m ((c.tc : Thread nD τ).loc main_arg7) :=
    (Pipeline.withArrays_of_ne _ c (V0 m c) _ main_arg7 (by exact (by decide : ∀ w, Pipeline.arrRef spec0 w ≠ main_arg7))).trans (V_main_arg7 m c)
  unfold Pipeline.afterTail₀
  show StableHlo.after hostOps1 _ (Proc.devRef .tc main_v40) = _
  after_results
  rw [h7, h8, h1, h3, h10, hb]
  rfl

/-- The frame's eight conjuncts from the frame run's post: every argument array ends as launched. -/
theorem kept (r : PUnit × MemSt nD τ sig (Elt Ideal))
    (h : Pipeline.FramePost cfgs (dats (F := Ideal) m) 0 (Pipeline.afterTail₀ cfgs (dats (F := Ideal) m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).1 1).trans (((dats (F := Ideal) m 0 c).arrAt_in 1 rfl _).trans ((A_eq m c 1).trans (V_main_arg0 m c))),
    (((h c).2 main_arg1 (Pipeline.mem_restRefs_of main_arg1 (by decide) (by decide))).trans (W_main_arg1 m (dats (F := Ideal) m) c)),
    ((h c).1 2).trans (((dats (F := Ideal) m 0 c).arrAt_in 2 rfl _).trans ((A_eq m c 2).trans (V_main_arg2 m c))),
    ((h c).1 3).trans (((dats (F := Ideal) m 0 c).arrAt_in 3 rfl _).trans ((A_eq m c 3).trans (V_main_arg3 m c))),
    (((h c).2 main_arg4 (Pipeline.mem_restRefs_of main_arg4 (by decide) (by decide))).trans (W_main_arg4 m (dats (F := Ideal) m) c)),
    ((h c).1 5).trans (((dats (F := Ideal) m 0 c).arrAt_in 5 rfl _).trans ((A_eq m c 5).trans (V_main_arg5 m c))),
    ((h c).1 6).trans (((dats (F := Ideal) m 0 c).arrAt_in 6 rfl _).trans ((A_eq m c 6).trans (V_main_arg6 m c))),
    (((h c).2 main_arg7 (Pipeline.mem_restRefs_of main_arg7 (by decide) (by decide))).trans (W_main_arg7 m (dats (F := Ideal) m) c))⟩

/-- THE RUN, READ: every weakly fair execution of the kernel program terminates with its result `main_v40` at
    `kernelOut` of the edge list, the second bias and the two projected activations of all nodes (whose first operand
    is the mean-aggregated features), its second result the edge list unchanged, and every argument as launched. -/
theorem run : θ_run (defs (F := Ideal)) (onTc (τ := τ) (main (F := Ideal))) ⟨m, fun _ => 0, ρ⟩ (fun r => ∀ c : Dev nD,
      r.2.mem ((c.tc : Thread nD τ).loc main_v40)
        = kernelOut (m ((c.tc : Thread nD τ).loc main_arg1)) (m ((c.tc : Thread nD τ).loc main_arg7))
            (Cert.Sage.proj (M := 200000) (Cert.Sage.hidden (M := 200000) (agg1 (m ((c.tc : Thread nD τ).loc main_arg0)) (m ((c.tc : Thread nD τ).loc main_arg1))) (m ((c.tc : Thread nD τ).loc main_arg0)) (m ((c.tc : Thread nD τ).loc main_arg2)) (m ((c.tc : Thread nD τ).loc main_arg3)) (biasRow (m ((c.tc : Thread nD τ).loc main_arg4)))) (m ((c.tc : Thread nD τ).loc main_arg5)))
            (Cert.Sage.proj (M := 200000) (Cert.Sage.hidden (M := 200000) (agg1 (m ((c.tc : Thread nD τ).loc main_arg0)) (m ((c.tc : Thread nD τ).loc main_arg1))) (m ((c.tc : Thread nD τ).loc main_arg0)) (m ((c.tc : Thread nD τ).loc main_arg2)) (m ((c.tc : Thread nD τ).loc main_arg3)) (biasRow (m ((c.tc : Thread nD τ).loc main_arg4)))) (m ((c.tc : Thread nD τ).loc main_arg6)))
      ∧ r.2.mem ((c.tc : Thread nD τ).loc main_arg1) = m ((c.tc : Thread nD τ).loc main_arg1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨((h c).2 main_v40 (Pipeline.mem_restRefs_of main_v40 (by decide) (by decide))).trans
        ((tail_main_v40 m c).trans (by rw [projL_eq m c, projR_eq m c])),
      (kept m r h c).2.1,
      kept m r h c⟩)
    (run_main m ρ)

end Cert.Sage.Kernel

end
-- ==== Proof.Claims.lean ====
/-
  The five claims.

  The frames of the kernel as printed and of its idealization are the generated ones; the reference has no kernel, and its
  frame is its run with the result dropped. The idealization pass rewrote nothing, so `preserves` has nothing to state.
  The algebraic claim: the idealized kernel ends with its result array at the host tail's term over the two arrays the
  kernel wrote — the hidden activation `h` projected by `w2l` and by `w2r` — and the reference ends at its composed term;
  from arguments that agree, and under the precondition (every float input real-valued), the two are one function
  (`Cert.Sage.Bridge.bridge`: mean aggregation commutes with the projection by `w2l`). The second result is the edge list
  itself, which neither program changes.
-/
import proofs.«101379_j652835029486_2_alg».proof.Defs
import proofs.«101379_j652835029486_2_alg».proof.Proof.Gen.Kernel.Frame
import proofs.«101379_j652835029486_2_alg».proof.Proof.Gen.KernelIdeal.Frame
import proofs.«101379_j652835029486_2_alg».proof.Proof.Gen.ReferenceIdeal.Run
import proofs.«101379_j652835029486_2_alg».proof.Proof.Gen.ReferenceIdeal.Read
import proofs.«101379_j652835029486_2_alg».proof.Proof.Gen.Pre_finite_inputs
import proofs.«101379_j652835029486_2_alg».proof.Proof.Bridge
import proofs.«101379_j652835029486_2_alg».proof.Proof.Finite
import proofs.«101379_j652835029486_2_alg».proof.Proof.HiddenDeg
import proofs.«101379_j652835029486_2_alg».proof.Proof.HiddenEq
import proofs.«101379_j652835029486_2_alg».proof.Proof.HiddenReal
import proofs.«101379_j652835029486_2_alg».proof.Proof.KernelValue

noncomputable section

namespace Cert.Proof.SageClaims

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- From arguments that agree and are real-valued, the two idealized programs end with equal results. -/
theorem algebraic : Cert.algebraic_KernelIdeal_ReferenceIdeal := by
  intro m ρ m' ρ' hpre hagree
  refine ⟨_, fun c => m ((c.tc : Thread Cert.KernelIdeal.nD Cert.KernelIdeal.τ).loc Cert.KernelIdeal.main_arg1),
    Cert.Sage.Kernel.run m ρ, ?_⟩
  refine (θ_run Cert.ReferenceIdeal.defs _ _).mono
    (fun _ h c => ⟨(h c).1.trans ?_, (h c).2.1.trans (hagree c).2.1, (h c).2.2⟩)
    (Cert.ReferenceIdeal.Value.run (F := Ideal) m' ρ')
  obtain ⟨hx0, hx2, hx3, hx4, hx5, _, _⟩ := Cert.Sage.Finite.real_inputs m hpre c
  rw [Cert.ReferenceIdeal.Read.val_main_v58_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact (Cert.Sage.Bridge.bridge _ _ _ _ _ _ _ _
    (Cert.Sage.Hidden.val_main_v29_eq_hidden _ _ _ _ _ Cert.KernelIdeal.Facts₀.shapeCasts_S256_S1x256)
    (Cert.Sage.Hidden.val_main_v29_real _ _ _ _ _ hx0 hx2 hx3 hx4)
    (Cert.Sage.Hidden.val_main_v49_real _)
    Cert.Sage.Hidden.val_main_v45_zero
    hx5).symm

end Cert.Proof.SageClaims

end
-- ==== Proof.lean ====
/-
  A two-layer mean-aggregating graph network over 200000 nodes and 500000 edges: the kernel program against its reference.

  Each layer maps node features to `mean over incoming edges of the source's features · wl + own features · wr + b`; the first
  is followed by a rectifier. The reference runs the two layers as written. The kernel program computes the first layer's
  mean on the host, and in one kernel over blocks of 8000 nodes the hidden activation `h` and both of its projections to the
  two classes, `h · w2l` and `h · w2r`; the host then takes the mean over incoming edges of the projected rows `h · w2l`,
  where the reference takes the mean of the 256-wide rows of `h` and projects it. On the extended reals the two agree
  because mean aggregation commutes with a linear projection — distributivity and an exchange of two finite sums — which
  needs every factor to be a real number: the precondition makes the inputs real-valued, sums, products, the rectifier and
  the division by an in-degree floored at one keep them real. Nothing else differs: a matrix product accumulated into zero
  is the host's product, the edge bookkeeping (sources wrapped and clamped, destinations dropped when out of range) is the
  same operations on the same edge list in both programs.

  The modules: `Spec` (the hidden activation and a projection, index by index), `LibScatterAddRows` and `LibGatherRows` (an
  accumulating row scatter and a row gather read at an index), `LibMeanProj` (the law), `Layer2` (the second layer computed
  both ways), `Kernel*` (the kernel's blocks as the whole arrays, the host terms, the run), `Hidden*` (the reference's first
  layer: it is `Spec.hidden`, real-valued, the degree a real at least one), `Finite` (the precondition read), `Bridge` and
  `Claims` (the two results are one function; the five claims).
-/
import proofs.«101379_j652835029486_2_alg».proof.Defs
import proofs.«101379_j652835029486_2_alg».proof.Proof.Gen.Kernel
import proofs.«101379_j652835029486_2_alg».proof.Proof.Gen.Kernel.Skeleton
import proofs.«101379_j652835029486_2_alg».proof.Proof.Gen.Kernel.Launch
import proofs.«101379_j652835029486_2_alg».proof.Proof.Gen.Kernel.Points
import proofs.«101379_j652835029486_2_alg».proof.Proof.Gen.Kernel.Frame
import proofs.«101379_j652835029486_2_alg».proof.Proof.Gen.KernelIdeal
import proofs.«101379_j652835029486_2_alg».proof.Proof.Gen.KernelIdeal.Skeleton
import proofs.«101379_j652835029486_2_alg».proof.Proof.Gen.KernelIdeal.Launch
import proofs.«101379_j652835029486_2_alg».proof.Proof.Gen.KernelIdeal.Points
import proofs.«101379_j652835029486_2_alg».proof.Proof.Gen.KernelIdeal.Frame
import proofs.«101379_j652835029486_2_alg».proof.Proof.Gen.ReferenceIdeal
import proofs.«101379_j652835029486_2_alg».proof.Proof.Gen.ReferenceIdeal.Run
import proofs.«101379_j652835029486_2_alg».proof.Proof.Gen.ReferenceIdeal.Read
import proofs.«101379_j652835029486_2_alg».proof.Proof.Gen.Pre_finite_inputs
import proofs.«101379_j652835029486_2_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  SageClaims.frame_k, SageClaims.frame_ki, SageClaims.frame_ri, SageClaims.preserves, SageClaims.algebraic⟩

end Cert.Proof

end
